-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096 : Shape := ⟨3, ![8, 32, 4096]⟩
abbrev S11008x4096 : Shape := ⟨2, ![11008, 4096]⟩
abbrev S4096x11008 : Shape := ⟨2, ![4096, 11008]⟩
abbrev S_ : Shape := ⟨0, ![]⟩

class Facts : Prop where
  bcast_S_S8x32x4096 : S_.BroadcastsInDim S8x32x4096 (![] : Fin 0 → Fin S8x32x4096.rank)
  reducesTo_S8x32x4096_S_d0_1_2 : S8x32x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S8x32x4096 .f32) (main_arg1 : FVec F S11008x4096 .f32) (main_arg2 : FVec F S11008x4096 .f32) (main_arg3 : FVec F S4096x11008 .f32) : IVec S_ 1 :=
  let main_v0 : FVec F S8x32x4096 .f32 := Host.absf main_arg0
  let main_cst : FVec F S_ .f32 := constant S_ .f32 0x7F800000#32
  let main_v1 : FVec F S8x32x4096 .f32 := broadcastInDim S8x32x4096 ![] bcast_S_S8x32x4096 main_cst
  let main_v2 : IVec S8x32x4096 1 := cmpf .olt main_v0 main_v1
  let main_c : IVec S_ 1 := constantI S_ 1 1#1
  let main_v3 : IVec S_ 1 := (fun x v => Host.reduce IntOp.andi x v reducesTo_S8x32x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S8x32x4096 : Shape := ⟨3, ![8, 32, 4096]⟩
abbrev S11008x4096 : Shape := ⟨2, ![11008, 4096]⟩
abbrev S4096x11008 : Shape := ⟨2, ![4096, 11008]⟩
abbrev S256x4096 : Shape := ⟨2, ![256, 4096]⟩
abbrev S_ : Shape := ⟨0, ![]⟩
abbrev S256x11008 : Shape := ⟨2, ![256, 11008]⟩
abbrev S256x256 : Shape := ⟨2, ![256, 256]⟩
abbrev S256 : Shape := ⟨1, ![256]⟩
abbrev S256x1 : Shape := ⟨2, ![256, 1]⟩
abbrev S128x11008 : Shape := ⟨2, ![128, 11008]⟩
abbrev S256x128 : Shape := ⟨2, ![256, 128]⟩
abbrev S128 : Shape := ⟨1, ![128]⟩
abbrev S128x1 : Shape := ⟨2, ![128, 1]⟩

abbrev nBuf : Space → Nat
  | .hbm => 50
  | .vmem => 12
  | .smem => 0
  | _ => 0

abbrev bufTy : (tb : Table) → Fin (tcTables nBuf tb) → BufTy
  | .hbm, ⟨0, _⟩ => ⟨S8x32x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S256x4096, .f32⟩
  | .hbm, ⟨5, _⟩ => ⟨S256x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S256x4096, .f32⟩
  | .hbm, ⟨13, _⟩ => ⟨S256x4096, .f32⟩
  | .hbm, ⟨14, _⟩ => ⟨S256x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S256x4096, .f32⟩
  | .hbm, ⟨19, _⟩ => ⟨S256x4096, .f32⟩
  | .hbm, ⟨20, _⟩ => ⟨S_, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S256x4096, .bf16⟩
  | .hbm, ⟨26, _⟩ => ⟨S256x11008, .f32⟩
  | .hbm, ⟨27, _⟩ => ⟨S256x11008, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256x11008, .f32⟩
  | .hbm, ⟨35, _⟩ => ⟨S256x11008, .f32⟩
  | .hbm, ⟨36, _⟩ => ⟨S256x11008, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S256x11008, .f32⟩
  | .hbm, ⟨41, _⟩ => ⟨S256x11008, .f32⟩
  | .hbm, ⟨42, _⟩ => ⟨S_, .f32⟩
  | .hbm, ⟨43, _⟩ => ⟨S256x11008, .f32⟩
  | .hbm, ⟨44, _⟩ => ⟨S256x11008, .f32⟩
  | .hbm, ⟨45, _⟩ => ⟨S256x11008, .f32⟩
  | .hbm, ⟨46, _⟩ => ⟨S256x11008, .f32⟩
  | .hbm, ⟨47, _⟩ => ⟨S256x11008, .bf16⟩
  | .hbm, ⟨48, _⟩ => ⟨S256x4096, .f32⟩
  | .hbm, ⟨49, _⟩ => ⟨S8x32x4096, .f32⟩
  | .local _ .vmem, ⟨0, _⟩ => ⟨S256x4096, .bf16⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x256, .f32⟩
  | .local _ .vmem, ⟨6, _⟩ => ⟨S256x256, .f32⟩
  | .local _ .vmem, ⟨7, _⟩ => ⟨S256x11008, .bf16⟩
  | .local _ .vmem, ⟨8, _⟩ => ⟨S128x11008, .f32⟩
  | .local _ .vmem, ⟨9, _⟩ => ⟨S128x11008, .f32⟩
  | .local _ .vmem, ⟨10, _⟩ => ⟨S256x128, .f32⟩
  | .local _ .vmem, ⟨11, _⟩ => ⟨S256x128, .f32⟩
  | _, _ => ⟨S8x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x11008 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x11008 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x32x4096_S256x4096 : S8x32x4096.ShapeCasts S256x4096
  reducesTo_S256x4096_S_d0_1 : S256x4096.ReducesTo [0, 1] S_
  h_S_ : 0 < S_.numel
  bcast_S_S256x4096 : S_.BroadcastsInDim S256x4096 (![] : Fin 0 → Fin S256x4096.rank)
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S256x256_S256x256_0_0 : ∀ a, (![0, 0] : Fin 2 → Nat) a + S256x256.size a ≤ S256x256.size a
  h_S256x256 : 0 < S256x256.numel
  reducesTo_S256x11008_S_d0_1 : S256x11008.ReducesTo [0, 1] S_
  bcast_S_S256x11008 : S_.BroadcastsInDim S256x11008 (![] : Fin 0 → Fin S256x11008.rank)
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S128x11008_S128x11008_0_0 : ∀ a, (![0, 0] : Fin 2 → Nat) a + S128x11008.size a ≤ S128x11008.size a
  h_S128x11008 : 0 < S128x11008.numel
  reduces_S128x11008_S128 : S128x11008.Reduces [1] S128
  shapeCasts_S128_S128x1 : S128.ShapeCasts S128x1
  broadcasts_S128x1_S128x11008 : S128x1.Broadcasts S128x11008
  inb_S256x128_S256x128_0_0 : ∀ a, (![0, 0] : Fin 2 → Nat) a + S256x128.size a ≤ S256x128.size a
  h_S256x128 : 0 < S256x128.numel
  shapeCasts_S256x4096_S8x32x4096 : S256x4096.ShapeCasts S8x32x4096
  dot_S256x4096_S256x4096_S256x256_1_1_0_0_n_n_wf : DotDims.WF S256x4096 S256x4096 S256x256 [1] [1] [0] [0] [] []
  dot_S256x11008_S128x11008_S256x128_1_1_0_0_n_n_wf : DotDims.WF S256x11008 S128x11008 S256x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .f32 = 32 ∨ (Rect.block (s := S11008x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x11008.size a
  hwx0_3 : ∀ i : grid0.Coords, EltTy.bits .f32 = 32 ∨ (Rect.block (s := S256x11008) S256x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x11008.size a ≤ S256x11008.size a
  hwx1_0 : ∀ i : grid1.Coords, EltTy.bits .bf16 = 32 ∨ (Rect.block (s := S256x11008) S256x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x11008.size a ≤ S4096x11008.size a
  hwx1_1 : ∀ i : grid1.Coords, EltTy.bits .f32 = 32 ∨ (Rect.block (s := S4096x11008) S128x11008.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x4096.size a
  hwx1_2 : ∀ i : grid1.Coords, EltTy.bits .f32 = 32 ∨ (Rect.block (s := S256x4096) S256x128.size (cc1_transform_2 i) (hinb1_2 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x11008_S128x11008_S256x128_1_1_0_0_n_n : DotDims S256x11008 S128x11008 S256x128 where
  lhsContracting := [1]
  rhsContracting := [1]
  lhsNonContracting := [0]
  rhsNonContracting := [0]
  lhsBatch := []
  rhsBatch := []
  wf := dot_S256x11008_S128x11008_S256x128_1_1_0_0_n_n_wf

abbrev win0_0 : Pipeline.Window sig grid0 :=
  Pipeline.Window.ofSpec (Memref.whole main_v11) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S256x11008.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x32x4096 : Shape := ⟨3, ![8, 32, 4096]⟩
abbrev S11008x4096 : Shape := ⟨2, ![11008, 4096]⟩
abbrev S4096x11008 : Shape := ⟨2, ![4096, 11008]⟩
abbrev S_ : Shape := ⟨0, ![]⟩
abbrev S11008 : Shape := ⟨1, ![11008]⟩
abbrev S11008x1 : Shape := ⟨2, ![11008, 1]⟩
abbrev S8x32x11008 : Shape := ⟨3, ![8, 32, 11008]⟩
abbrev S4096 : Shape := ⟨1, ![4096]⟩
abbrev S4096x1 : Shape := ⟨2, ![4096, 1]⟩

abbrev nBuf : Space → Nat
  | .hbm => 136
  | .vmem => 0
  | .smem => 0
  | _ => 0

abbrev hbmTy0_0 (i : Nat) : BufTy := match i % 128 with
  | 0 => ⟨S8x32x4096, .f32⟩
  | 1 => ⟨S11008x4096, .f32⟩
  | 2 => ⟨S11008x4096, .f32⟩
  | 3 => ⟨S4096x11008, .f32⟩
  | 4 => ⟨S8x32x4096, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S8x32x4096, .f32⟩
  | 12 => ⟨S8x32x4096, .f32⟩
  | 13 => ⟨S8x32x4096, .f32⟩
  | 14 => ⟨S_, .f32⟩
  | 15 => ⟨S_, .f32⟩
  | 16 => ⟨S_, .f32⟩
  | 17 => ⟨S8x32x4096, .f32⟩
  | 18 => ⟨S8x32x4096, .f32⟩
  | 19 => ⟨S_, .f32⟩
  | 20 => ⟨S8x32x4096, .f32⟩
  | 21 => ⟨S8x32x4096, .f32⟩
  | 22 => ⟨S8x32x4096, .f32⟩
  | 23 => ⟨S8x32x4096, .f32⟩
  | 24 => ⟨S8x32x4096, .f32⟩
  | 25 => ⟨S8x32x4096, .f32⟩
  | 26 => ⟨S11008x4096, .f32⟩
  | 27 => ⟨S_, .f32⟩
  | 28 => ⟨S11008, .f32⟩
  | 29 => ⟨S11008x1, .f32⟩
  | 30 => ⟨S_, .f32⟩
  | 31 => ⟨S11008x1, .f32⟩
  | 32 => ⟨S11008x1, .f32⟩
  | 33 => ⟨S_, .f32⟩
  | 34 => ⟨S11008x1, .f32⟩
  | 35 => ⟨S11008x1, .f32⟩
  | 36 => ⟨S11008x4096, .f32⟩
  | 37 => ⟨S11008x4096, .f32⟩
  | 38 => ⟨S11008x4096, .f32⟩
  | 39 => ⟨S_, .f32⟩
  | 40 => ⟨S_, .f32⟩
  | 41 => ⟨S_, .f32⟩
  | 42 => ⟨S11008x4096, .f32⟩
  | 43 => ⟨S11008x4096, .f32⟩
  | 44 => ⟨S_, .f32⟩
  | 45 => ⟨S11008x4096, .f32⟩
  | 46 => ⟨S11008x4096, .f32⟩
  | 47 => ⟨S11008x4096, .f32⟩
  | 48 => ⟨S11008x4096, .f32⟩
  | 49 => ⟨S11008x4096, .f32⟩
  | 50 => ⟨S11008x4096, .f32⟩
  | 51 => ⟨S11008x4096, .f32⟩
  | 52 => ⟨S_, .f32⟩
  | 53 => ⟨S11008, .f32⟩
  | 54 => ⟨S11008x1, .f32⟩
  | 55 => ⟨S_, .f32⟩
  | 56 => ⟨S11008x1, .f32⟩
  | 57 => ⟨S11008x1, .f32⟩
  | 58 => ⟨S_, .f32⟩
  | 59 => ⟨S11008x1, .f32⟩
  | 60 => ⟨S11008x1, .f32⟩
  | 61 => ⟨S11008x4096, .f32⟩
  | 62 => ⟨S11008x4096, .f32⟩
  | 63 => ⟨S11008x4096, .f32⟩
  | 64 => ⟨S_, .f32⟩
  | 65 => ⟨S_, .f32⟩
  | 66 => ⟨S_, .f32⟩
  | 67 => ⟨S11008x4096, .f32⟩
  | 68 => ⟨S11008x4096, .f32⟩
  | 69 => ⟨S_, .f32⟩
  | 70 => ⟨S11008x4096, .f32⟩
  | 71 => ⟨S11008x4096, .f32⟩
  | 72 => ⟨S11008x4096, .f32⟩
  | 73 => ⟨S11008x4096, .f32⟩
  | 74 => ⟨S11008x4096, .f32⟩
  | 75 => ⟨S11008x4096, .f32⟩
  | 76 => ⟨S8x32x11008, .f32⟩
  | 77 => ⟨S8x32x11008, .f32⟩
  | 78 => ⟨S8x32x11008, .f32⟩
  | 79 => ⟨S8x32x11008, .f32⟩
  | 80 => ⟨S_, .f32⟩
  | 81 => ⟨S8x32x11008, .f32⟩
  | 82 => ⟨S8x32x11008, .f32⟩
  | 83 => ⟨S_, .f32⟩
  | 84 => ⟨S8x32x11008, .f32⟩
  | 85 => ⟨S8x32x11008, .f32⟩
  | 86 => ⟨S8x32x11008, .f32⟩
  | 87 => ⟨S8x32x11008, .f32⟩
  | 88 => ⟨S8x32x11008, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S8x32x11008, .f32⟩
  | 96 => ⟨S8x32x11008, .f32⟩
  | 97 => ⟨S8x32x11008, .f32⟩
  | 98 => ⟨S_, .f32⟩
  | 99 => ⟨S_, .f32⟩
  | 100 => ⟨S_, .f32⟩
  | 101 => ⟨S8x32x11008, .f32⟩
  | 102 => ⟨S8x32x11008, .f32⟩
  | 103 => ⟨S_, .f32⟩
  | 104 => ⟨S8x32x11008, .f32⟩
  | 105 => ⟨S8x32x11008, .f32⟩
  | 106 => ⟨S8x32x11008, .f32⟩
  | 107 => ⟨S8x32x11008, .f32⟩
  | 108 => ⟨S8x32x11008, .f32⟩
  | 109 => ⟨S8x32x11008, .f32⟩
  | 110 => ⟨S4096x11008, .f32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096x1, .f32⟩
  | 119 => ⟨S4096x1, .f32⟩
  | 120 => ⟨S4096x11008, .f32⟩
  | 121 => ⟨S4096x11008, .f32⟩
  | 122 => ⟨S4096x11008, .f32⟩
  | 123 => ⟨S_, .f32⟩
  | 124 => ⟨S_, .f32⟩
  | 125 => ⟨S_, .f32⟩
  | 126 => ⟨S4096x11008, .f32⟩
  | 127 => ⟨S4096x11008, .f32⟩
  | _ => ⟨S8x32x4096, .f32⟩

abbrev hbmTy0_1 (i : Nat) : BufTy := match i % 128 with
  | 0 => ⟨S_, .f32⟩
  | 1 => ⟨S4096x11008, .f32⟩
  | 2 => ⟨S4096x11008, .f32⟩
  | 3 => ⟨S4096x11008, .f32⟩
  | 4 => ⟨S4096x11008, .f32⟩
  | 5 => ⟨S4096x11008, .f32⟩
  | 6 => ⟨S4096x11008, .f32⟩
  | 7 => ⟨S8x32x4096, .f32⟩
  | _ => ⟨S8x32x4096, .f32⟩

abbrev hbmTy (i : Nat) : BufTy := match i / 128 with
  | 0 => hbmTy0_0 i
  | 1 => hbmTy0_1 i
  | _ => ⟨S8x32x4096, .f32⟩

abbrev bufTy : (tb : Table) → Fin (tcTables nBuf tb) → BufTy
  | .hbm, ⟨i, _⟩ => hbmTy i
  | _, _ => ⟨S8x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_cst_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_cst_13 : Ref sig .tc := ⟨.hbm, 65, rfl⟩
abbrev main_call5_v0 : Ref sig .tc := ⟨.hbm, 66, rfl⟩
abbrev main_call5_v1 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_call6_v0 : Ref sig .tc := ⟨.hbm, 78, rfl⟩
abbrev main_call6_v1 : Ref sig .tc := ⟨.hbm, 79, rfl⟩
abbrev main_call6_cst : Ref sig .tc := ⟨.hbm, 80, rfl⟩
abbrev main_call6_v2 : Ref sig .tc := ⟨.hbm, 81, rfl⟩
abbrev main_call6_v3 : Ref sig .tc := ⟨.hbm, 82, rfl⟩
abbrev main_call6_cst_0 : Ref sig .tc := ⟨.hbm, 83, rfl⟩
abbrev main_call6_v4 : Ref sig .tc := ⟨.hbm, 84, rfl⟩
abbrev main_call6_v5 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_14 : Ref sig .tc := ⟨.hbm, 89, rfl⟩
abbrev main_v47 : Ref sig .tc := ⟨.hbm, 90, rfl⟩
abbrev main_cst_15 : Ref sig .tc := ⟨.hbm, 91, rfl⟩
abbrev main_v48 : Ref sig .tc := ⟨.hbm, 92, rfl⟩
abbrev main_cst_16 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_17 : Ref sig .tc := ⟨.hbm, 98, rfl⟩
abbrev main_cst_18 : Ref sig .tc := ⟨.hbm, 99, rfl⟩
abbrev main_call8_v0 : Ref sig .tc := ⟨.hbm, 100, rfl⟩
abbrev main_call8_v1 : Ref sig .tc := ⟨.hbm, 101, rfl⟩
abbrev main_call8_v2 : Ref sig .tc := ⟨.hbm, 102, rfl⟩
abbrev main_call8_v3 : Ref sig .tc := ⟨.hbm, 103, rfl⟩
abbrev main_call8_v4 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_19 : Ref sig .tc := ⟨.hbm, 111, rfl⟩
abbrev main_v59 : Ref sig .tc := ⟨.hbm, 112, rfl⟩
abbrev main_v60 : Ref sig .tc := ⟨.hbm, 113, rfl⟩
abbrev main_cst_20 : Ref sig .tc := ⟨.hbm, 114, rfl⟩
abbrev main_v61 : Ref sig .tc := ⟨.hbm, 115, rfl⟩
abbrev main_v62 : Ref sig .tc := ⟨.hbm, 116, rfl⟩
abbrev main_cst_21 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_cst_22 : Ref sig .tc := ⟨.hbm, 123, rfl⟩
abbrev main_cst_23 : Ref sig .tc := ⟨.hbm, 124, rfl⟩
abbrev main_call10_v0 : Ref sig .tc := ⟨.hbm, 125, rfl⟩
abbrev main_call10_v1 : Ref sig .tc := ⟨.hbm, 126, rfl⟩
abbrev main_call10_v2 : Ref sig .tc := ⟨.hbm, 127, rfl⟩
abbrev main_call10_v3 : Ref sig .tc := ⟨.hbm, 128, rfl⟩
abbrev main_call10_v4 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩

abbrev nD : Nat := 1
abbrev τ : Topo := Topo.v7x

variable {F : FTy → Type} [FloatOps F]

class Facts₀ : Prop where
  reducesTo_S8x32x4096_S_d0_1_2 : S8x32x4096.ReducesTo [0, 1, 2] S_
  h_S_ : 0 < S_.numel
  bcast_S_S8x32x4096 : S_.BroadcastsInDim S8x32x4096 (![] : Fin 0 → Fin S8x32x4096.rank)
  reducesTo_S11008x4096_S11008_d1 : S11008x4096.ReducesTo [1] S11008
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S11008x1_S11008x4096_0_1 : S11008x1.BroadcastsInDim S11008x4096 (![0, 1] : Fin 2 → Fin S11008x4096.rank)
  bcast_S_S11008x4096 : S_.BroadcastsInDim S11008x4096 (![] : Fin 0 → Fin S11008x4096.rank)
  bcast_S_S8x32x11008 : S_.BroadcastsInDim S8x32x11008 (![] : Fin 0 → Fin S8x32x11008.rank)
  reducesTo_S8x32x11008_S_d0_1_2 : S8x32x11008.ReducesTo [0, 1, 2] S_
  reducesTo_S4096x11008_S4096_d1 : S4096x11008.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x11008_0_1 : S4096x1.BroadcastsInDim S4096x11008 (![0, 1] : Fin 2 → Fin S4096x11008.rank)
  bcast_S_S4096x11008 : S_.BroadcastsInDim S4096x11008 (![] : Fin 0 → Fin S4096x11008.rank)
  dot_S8x32x4096_S11008x4096_S8x32x11008_2_1_01_0_n_n_wf : DotDims.WF S8x32x4096 S11008x4096 S8x32x11008 [2] [1] [0, 1] [0] [] []
  dot_S8x32x11008_S4096x11008_S8x32x4096_2_1_01_0_n_n_wf : DotDims.WF S8x32x11008 S4096x11008 S8x32x4096 [2] [1] [0, 1] [0] [] []

variable [Facts₀]

def dot_S8x32x4096_S11008x4096_S8x32x11008_2_1_01_0_n_n : DotDims S8x32x4096 S11008x4096 S8x32x11008 where
  lhsContracting := [2]
  rhsContracting := [1]
  lhsNonContracting := [0, 1]
  rhsNonContracting := [0]
  lhsBatch := []
  rhsBatch := []
  wf := dot_S8x32x4096_S11008x4096_S8x32x11008_2_1_01_0_n_n_wf
def dot_S8x32x11008_S4096x11008_S8x32x4096_2_1_01_0_n_n : DotDims S8x32x11008 S4096x11008 S8x32x4096 where
  lhsContracting := [2]
  rhsContracting := [1]
  lhsNonContracting := [0, 1]
  rhsNonContracting := [0]
  lhsBatch := []
  rhsBatch := []
  wf := dot_S8x32x11008_S4096x11008_S8x32x4096_2_1_01_0_n_n_wf

class Facts : Prop extends Facts₀ where

variable [Facts]
-- ==== Proof.KRun.lean ====
/-
  The idealised kernel program's run with its result named.

  The program is thirteen segments: five stretches of host operations, the gate/up pipeline, five stretches, the down
  pipeline, and a final reshape. Every weakly fair execution from a memory with zero counters terminates without a
  fault, and in every final state each unscoped buffer holds what the fold of the segments leaves in it: in particular
  the result buffer holds the last stretch's contents, and the four argument arrays are as launched.
-/
import proofs.«145767_j78151224918032_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the contents the last stretch leaves (`W13`), the arguments as launched. -/
theorem run : θ_run defs (onTc (τ := τ) (main (F := F))) ⟨m, fun _ => 0, ρ⟩ (fun r => ∀ c : Dev nD,
      r.2.mem ((c.tc : Thread nD τ).loc main_v25) = W13 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v25 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c)⟩)

end Cert.KernelIdeal.KRun

end
-- ==== Proof.QuantSpec.lean ====
/-
  The fake-quantised SwiGLU MLP as one function of its four arrays, in two arrangements.

  Tokens are indexed by ρ, input features by κ, intermediate channels by ι, output features by ν. A weight row is
  quantised against its own scale s = max|row| / 127 + ε; an activation array against ONE scale taken over the whole
  array. The first arrangement (`mlpK`) quantises a weight as round(w · (1/s)) · s, without a clip, and an activation as
  clip(round(x / s)) · s. The second (`mlpR`) quantises both as v + (clip(round(v / s)) · s − v), the straight-through
  form. The hidden layer is silu(gate) · up with gate and up the two projections of the quantised activations, and silu
  spelt through the logistic function in the first arrangement and through 1 / (1 + e^(−g)) in the second.

  The float words are kept as words: 127, −128, ε = f32(1e-8), 1 and −∞.
-/
import Idealize.ShloMosaic.PureOps.Ideal
import Mathlib.Order.CompleteLattice.Basic
import Mathlib.Algebra.BigOperators.Group.Finset.Basic

noncomputable section

namespace Cert.QuantMLP

open Idealize.ShloMosaic
open scoped BigOperators

/-- The word of 127. -/
abbrev w127 : EReal := Ideal.ofBits .f32 0x42FE0000#32
/-- The word of −128. -/
abbrev wm128 : EReal := Ideal.ofBits .f32 0xC3000000#32
/-- The word of ε, the f32 nearest 1e-8. -/
abbrev weps : EReal := Ideal.ofBits .f32 0x322BCC77#32
/-- The word of 1. -/
abbrev wone : EReal := Ideal.ofBits .f32 0x3F800000#32
/-- The word of −∞. -/
abbrev wninf : EReal := Ideal.ofBits .f32 0xFF800000#32

/-- The absolute value, as both programs compute it. -/
def absE (x : EReal) : EReal := max x (-x)

/-- Rounding to the nearest integer, ties to even; the infinities fixed. -/
def rne (x : EReal) : EReal := Ideal.liftRound Ideal.roundHalfEven x

/-- The quantisation step from a maximum of absolute values: M / 127 + ε. -/
def scaleOf (M : EReal) : EReal := Ideal.div M w127 + weps

/-- The clip to [−128, 127]. -/
def clip (r : EReal) : EReal := min w127 (max wm128 r)

/-- A weight entry quantised by a product with the reciprocal step, no clip. -/
def qW (w s : EReal) : EReal := rne (w * Ideal.div wone s) * s

/-- An entry quantised by a quotient, clipped. -/
def qA (x s : EReal) : EReal := clip (rne (Ideal.div x s)) * s

/-- The straight-through form of `qA`. -/
def qS (x s : EReal) : EReal := x + (qA x s - x)

/-- silu through the logistic function. -/
def siluK (g : EReal) : EReal := g * Ideal.logistic g

/-- silu through 1 / (1 + e^(−g)). -/
def siluR (g : EReal) : EReal := g * Ideal.div wone (wone + Ideal.exp (-g))

variable {ρ κ ι ν : Type} [Fintype κ] [Fintype ι]

/-- The largest absolute value of a whole array. -/
def amaxAll {α β : Type} (x : α → β → EReal) : EReal := ⨆ r, ⨆ k, absE (x r k)

/-- The largest absolute value of one row. -/
def amaxRow {α β : Type} (w : α → β → EReal) (i : α) : EReal := ⨆ k, absE (w i k)

/-- An activation array quantised against its one scale (clipped form). -/
def actK {α β : Type} (x : α → β → EReal) : α → β → EReal := fun r k => qA (x r k) (scaleOf (amaxAll x))

/-- An activation array quantised against its one scale (straight-through form). -/
def actR {α β : Type} (x : α → β → EReal) : α → β → EReal := fun r k => qS (x r k) (scaleOf (amaxAll x))

/-- A weight array quantised row by row (product with the reciprocal step, no clip). -/
def wK {α β : Type} (w : α → β → EReal) : α → β → EReal := fun i k => qW (w i k) (scaleOf (amaxRow w i))

/-- A weight array quantised row by row (straight-through form). -/
def wR {α β : Type} (w : α → β → EReal) : α → β → EReal := fun i k => qS (w i k) (scaleOf (amaxRow w i))

/-- The hidden layer, first arrangement. -/
def hidK (x : ρ → κ → EReal) (wg wu : ι → κ → EReal) : ρ → ι → EReal := fun r i =>
  siluK (∑ k, actK x r k * wK wg i k) * (∑ k, actK x r k * wK wu i k)

/-- The hidden layer, second arrangement. -/
def hidR (x : ρ → κ → EReal) (wg wu : ι → κ → EReal) : ρ → ι → EReal := fun r i =>
  siluR (∑ k, actR x r k * wR wg i k) * (∑ k, actR x r k * wR wu i k)

/-- The MLP, first arrangement. -/
def mlpK (x : ρ → κ → EReal) (wg wu : ι → κ → EReal) (wd : ν → ι → EReal) : ρ → ν → EReal := fun r n =>
  ∑ i, actK (hidK x wg wu) r i * wK wd n i

/-- The MLP, second arrangement. -/
def mlpR (x : ρ → κ → EReal) (wg wu : ι → κ → EReal) (wd : ν → ι → EReal) : ρ → ν → EReal := fun r n =>
  ∑ i, actR (hidR x wg wu) r i * wR wd n i

end Cert.QuantMLP

end
-- ==== Proof.QuantConsts.lean ====
/-
  The values of the five float words of the quantised MLP, and the running maximum from −∞ as a supremum.
-/
import proofs.«145767_j78151224918032_2_alg».proof.Proof.QuantSpec
import Mathlib.Order.CompleteLattice.Finset
import Mathlib.Data.Finset.Fold
import Mathlib.Data.Real.Basic

noncomputable section

namespace Cert.QuantMLP

open Idealize.ShloMosaic

/-- An extended real that is a real number. -/
def IsReal (x : EReal) : Prop := ∃ r : ℝ, x = (r : EReal)

theorem w127_eq : w127 = ((127 : ℝ) : EReal) := by
  simp [w127, Ideal.ofBits, Ideal.ieee, -EReal.coe_mul]; norm_num

theorem wm128_eq : wm128 = ((-128 : ℝ) : EReal) := by
  simp [wm128, Ideal.ofBits, Ideal.ieee, -EReal.coe_mul]; norm_num

theorem wone_eq : wone = 1 := by
  simp [wone, Ideal.ofBits, Ideal.ieee, -EReal.coe_mul]; norm_num

theorem wninf_eq : wninf = ⊥ := by
  simp [wninf, Ideal.ofBits, Ideal.ieee]

theorem weps_pos : ∃ e : ℝ, 0 < e ∧ weps = (e : EReal) := by
  refine ⟨_, ?_, by simp [weps, Ideal.ofBits, Ideal.ieee, -EReal.coe_mul]; rfl⟩
  positivity

/-- Folding the maximum from the word of −∞ over all indices of a finite type is the supremum. -/
theorem fold_max_eq_iSup {α : Type} [Fintype α] (f : α → EReal) :
    Finset.univ.fold max wninf f = ⨆ i, f i := by
  rw [wninf_eq, ← Finset.sup_univ_eq_iSup]
  rfl

end Cert.QuantMLP

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.KTile.lean ====
/-
  A weight tile quantised row by row inside a kernel body, read at an index.

  The body takes the maximum of the absolute values along each row (a lane reduction from −∞), keeps it as a column,
  divides by 127 and adds ε to get the row's step s, multiplies the tile by the broadcast reciprocal 1/s, rounds to
  the nearest even integer, and multiplies by the broadcast step. At (p, q) that is round(w(p,q) · (1/s_p)) · s_p with
  s_p = (max_k |w(p,k)|) / 127 + ε: the specification's `qW` at the row's scale. For any extents.
-/
import proofs.«145767_j78151224918032_2_alg».proof.Proof.QuantConsts
import proofs.«145767_j78151224918032_2_alg».proof.Proof.LibKeepdims
import Idealize.ShloMosaic.Lib.ValueIdx
import Idealize.ShloMosaic.PureOps.Ideal.Laws

noncomputable section

namespace Cert.KTile

open Idealize.ShloMosaic Idealize.ShloMosaic.ValueIdx Cert.QuantMLP Cert.Lib

variable {a b : ℕ}

set_option backward.isDefEq.respectTransparency.types false in
/-- Over row `p` of an a × b array, the index with column `k` inserted is (p, k). -/
theorem lift_row (h : (⟨2, ![a, b]⟩ : Shape).Reduces [1] ⟨1, ![a]⟩) (p : Fin a) (k : Fin b) :
    h.lift (ix1 p) k = ix2 p k := by
  funext c
  apply Fin.ext
  rw [h.lift_val]
  match c with
  | ⟨0, _⟩ => simp [Shape.Reduces.liftVal]
  | ⟨1, _⟩ => simp [Shape.Reduces.liftVal]

/-- The column of row steps: max|row| / 127 + ε. -/
def rowScale (w : FVec Ideal ⟨2, ![a, b]⟩ .f32) (hr : (⟨2, ![a, b]⟩ : Shape).Reduces [1] ⟨1, ![a]⟩)
    (hc : (⟨1, ![a]⟩ : Shape).ShapeCasts ⟨2, ![a, 1]⟩) : FVec Ideal ⟨2, ![a, 1]⟩ .f32 :=
  addf (divf (shapeCast ⟨2, ![a, 1]⟩ (multiReduction .maximumf [1] ⟨1, ![a]⟩ (absf w) 0xFF800000#32 hr (.inl rfl) rfl) hc)
      (broadcast ⟨2, ![a, 1]⟩ (Scalar.ofBits .f32 0x42FE0000#32)))
    (broadcast ⟨2, ![a, 1]⟩ (Scalar.ofBits .f32 0x322BCC77#32))

/-- The row step at row `p` is the specification's scale of the row's largest absolute value. -/
theorem rowScale_apply (w : FVec Ideal ⟨2, ![a, b]⟩ .f32) (hr : (⟨2, ![a, b]⟩ : Shape).Reduces [1] ⟨1, ![a]⟩)
    (hc : (⟨1, ![a]⟩ : Shape).ShapeCasts ⟨2, ![a, 1]⟩) (p : Fin a) :
    rowScale w hr hc (ix2 p (0 : Fin 1)) = scaleOf (⨆ k : Fin b, absE (w (ix2 p k))) := by
  show Ideal.div (shapeCast ⟨2, ![a, 1]⟩ (multiReduction .maximumf [1] ⟨1, ![a]⟩ (absf w) 0xFF800000#32 hr (.inl rfl) rfl) hc
    (ix2 p (0 : Fin 1))) w127 + weps = _
  rw [Keepdims.col_apply]
  have hm := Ideal.multiReduction_maximumf_single (absf w) 0xFF800000#32 hr (.inl rfl) rfl (ix1 p)
  unfold scaleOf
  refine congrArg (fun M => Ideal.div M w127 + weps) (hm.trans ?_)
  refine (fold_max_eq_iSup (α := Fin b) ((absf w) ∘ hr.lift (ix1 p))).trans ?_
  refine iSup_congr fun k => ?_
  show absf w (hr.lift (ix1 p) k) = _
  rw [lift_row]
  rfl

/-- The tile quantised: round(w · (1/s)) · s with the row steps broadcast along the rows. -/
def qtile (w : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  mulf (roundeven (mulf w (broadcastTo ⟨2, ![a, b]⟩
      (divf (broadcast ⟨2, ![a, 1]⟩ (Scalar.ofBits .f32 0x3F800000#32)) (rowScale w hr hc)) hb)))
    (broadcastTo ⟨2, ![a, b]⟩ (rowScale w hr hc) hb)

/-- The quantised tile at (p, q) is the specification's `qW` of the entry at its row's scale. -/
theorem qtile_apply (w : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (p : Fin a) (q : Fin b) :
    qtile w hr hc hb (ix2 p q) = qW (w (ix2 p q)) (scaleOf (⨆ k : Fin b, absE (w (ix2 p k)))) := by
  show rne (w (ix2 p q) * broadcastTo ⟨2, ![a, b]⟩
      (divf (broadcast ⟨2, ![a, 1]⟩ (Scalar.ofBits .f32 0x3F800000#32)) (rowScale w hr hc)) hb (ix2 p q))
    * broadcastTo ⟨2, ![a, b]⟩ (rowScale w hr hc) hb (ix2 p q) = _
  rw [Keepdims.bcastCol_apply, Keepdims.bcastCol_apply]
  show rne (w (ix2 p q) * Ideal.div wone (rowScale w hr hc (ix2 p (0 : Fin 1)))) * rowScale w hr hc (ix2 p (0 : Fin 1)) = _
  rw [rowScale_apply]
  rfl

end Cert.KTile

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.KPayload.lean ====
/-
  What the two kernel bodies compute, read at an index of their output block.

  The gate/up body holds the quantised activations (all 256 tokens × 4096 features), a 256-row tile of the gate weights
  and the same rows of the up weights. It quantises both weight tiles row by row, takes the two products against the
  activations (contracting the feature axis of both operands), and stores silu(gate) · up, a 256 × 256 block: entry
  (p, q) is token p against weight row q of the tile. The down body holds the quantised hidden layer (256 × 11008) and a
  128-row tile of the down weights, quantises the tile and stores the product, a 256 × 128 block.
-/
import proofs.«145767_j78151224918032_2_alg».proof.Proof.Gen.KernelIdeal.Skeleton
import proofs.«145767_j78151224918032_2_alg».proof.Proof.KTile
import proofs.«145767_j78151224918032_2_alg».proof.Proof.LibRowDot
import Idealize.ShloMosaic.Lib.Pipeline.Value

noncomputable section

namespace Cert.KernelIdeal.KValue

open Cert.KernelIdeal Cert.KernelIdeal.Gen
open Idealize.ShloMosaic Idealize.ShloMosaic.ValueIdx Cert.QuantMLP Cert.Lib
open scoped BigOperators

/-- One projection inside the gate/up body: the activations against a quantised 256-row weight tile. -/
def proj0 (x0 : Vec Ideal S256x4096 .bf16) (w : Vec Ideal S256x4096 .f32) : FVec Ideal S256x256 .f32 :=
  matmul dot_S256x4096_S256x4096_S256x256_1_1_0_0_n_n none (shapeCast S256x4096 x0 shapeCasts_S256x4096_S256x4096 : FVec Ideal S256x4096 .bf16)
    (truncf .bf16 (KTile.qtile w reduces_S256x4096_S256 shapeCasts_S256_S256x1 broadcasts_S256x1_S256x4096) bitsLt_bf16_f32)
    (constant S256x256 .f32 0x00000000#32)

/-- The projection at (p, q): token p's quantised activations against row q of the tile, quantised at its row's scale. -/
theorem proj0_apply (x0 : Vec Ideal S256x4096 .bf16) (w : Vec Ideal S256x4096 .f32) (p q : Fin 256) :
    proj0 x0 w (ix2 p q)
      = ∑ k : Fin 4096, x0 (ix2 p k) * qW (w (ix2 q k)) (scaleOf (⨆ k' : Fin 4096, absE (w (ix2 q k')))) := by
  unfold proj0
  refine (RowDot.matmul_zero_apply dot_S256x4096_S256x4096_S256x256_1_1_0_0_n_n_wf none _ _ p q).trans ?_
  refine Finset.sum_congr rfl fun k _ => ?_
  rw [shapeCast_self]
  exact congrArg (x0 (ix2 p k) * ·) (KTile.qtile_apply w _ _ _ q k)

/-- The gate/up body's stored value is silu(gate) · up of the two projections. -/
theorem pay0_eq (x0 : Vec Ideal S256x4096 .bf16) (x1 x2 : Vec Ideal S256x4096 .f32) :
    k0_pay1 (F := Ideal) x0 x1 x2 = mulf (mulf (proj0 x0 x1) (logistic (proj0 x0 x1))) (proj0 x0 x2) := rfl

/-- The gate/up body's stored block at (p, q). -/
theorem pay0_apply (x0 : Vec Ideal S256x4096 .bf16) (x1 x2 : Vec Ideal S256x4096 .f32) (p q : Fin 256) :
    k0_pay1 (F := Ideal) x0 x1 x2 (ix2 p q)
      = siluK (∑ k : Fin 4096, x0 (ix2 p k) * qW (x1 (ix2 q k)) (scaleOf (⨆ k' : Fin 4096, absE (x1 (ix2 q k')))))
        * (∑ k : Fin 4096, x0 (ix2 p k) * qW (x2 (ix2 q k)) (scaleOf (⨆ k' : Fin 4096, absE (x2 (ix2 q k'))))) := by
  rw [pay0_eq]
  show (proj0 x0 x1 (ix2 p q) * Ideal.logistic (proj0 x0 x1 (ix2 p q))) * proj0 x0 x2 (ix2 p q) = _
  rw [proj0_apply, proj0_apply]
  rfl

/-- The down body's stored value: the quantised hidden layer against the quantised 128-row tile. -/
theorem pay1_eq (x0 : Vec Ideal S256x11008 .bf16) (w : Vec Ideal S128x11008 .f32) :
    k1_pay1 (F := Ideal) x0 w
      = matmul dot_S256x11008_S128x11008_S256x128_1_1_0_0_n_n none (shapeCast S256x11008 x0 shapeCasts_S256x11008_S256x11008 : FVec Ideal S256x11008 .bf16)
          (truncf .bf16 (KTile.qtile w reduces_S128x11008_S128 shapeCasts_S128_S128x1 broadcasts_S128x1_S128x11008) bitsLt_bf16_f32)
          (constant S256x128 .f32 0x00000000#32) := rfl

/-- The down body's stored block at (p, q). -/
theorem pay1_apply (x0 : Vec Ideal S256x11008 .bf16) (w : Vec Ideal S128x11008 .f32) (p : Fin 256) (q : Fin 128) :
    k1_pay1 (F := Ideal) x0 w (ix2 p q)
      = ∑ i : Fin 11008, x0 (ix2 p i) * qW (w (ix2 q i)) (scaleOf (⨆ i' : Fin 11008, absE (w (ix2 q i')))) := by
  rw [pay1_eq]
  refine (RowDot.matmul_zero_apply dot_S256x11008_S128x11008_S256x128_1_1_0_0_n_n_wf none _ _ p q).trans ?_
  refine Finset.sum_congr rfl fun k _ => ?_
  rw [shapeCast_self]
  exact congrArg (x0 (ix2 p k) * ·) (KTile.qtile_apply w _ _ _ q k)

end Cert.KernelIdeal.KValue

end
-- ==== Proof.QuantParts.lean ====
/-
  The two matrix stages of the first arrangement taken apart from the quantisation of their left operands: the hidden
  layer from already quantised activations, and the output from an already quantised hidden layer.
-/
import proofs.«145767_j78151224918032_2_alg».proof.Proof.QuantSpec

noncomputable section

namespace Cert.QuantMLP

open scoped BigOperators

variable {ρ κ ι ν : Type} [Fintype κ] [Fintype ι]

/-- silu(gate) · up from quantised activations `a` and the two weight arrays, each quantised row by row. -/
def hidOf (a : ρ → κ → EReal) (wg wu : ι → κ → EReal) : ρ → ι → EReal := fun r i =>
  siluK (∑ k, a r k * wK wg i k) * (∑ k, a r k * wK wu i k)

/-- The output from a quantised hidden layer `h` and the down weights quantised row by row. -/
def outOf (h : ρ → ι → EReal) (wd : ν → ι → EReal) : ρ → ν → EReal := fun r n => ∑ i, h r i * wK wd n i

theorem hidK_eq (x : ρ → κ → EReal) (wg wu : ι → κ → EReal) : hidK x wg wu = hidOf (actK x) wg wu := rfl

theorem mlpK_eq (x : ρ → κ → EReal) (wg wu : ι → κ → EReal) (wd : ν → ι → EReal) :
    mlpK x wg wu wd = outOf (actK (hidOf (actK x) wg wu)) wd := rfl

end Cert.QuantMLP

end
-- ==== Proof.KRegion0.lean ====
/-
  The gate/up pipeline's output array.

  The pipeline has 43 points. At point t it holds all of the quantised activations, rows 256·t … 256·t+255 of the gate
  and of the up weights, and writes back columns 256·t … 256·t+255 of the hidden array. The 43 column blocks tile the
  256 × 11008 array, so after the pipeline the array is, entry by entry, silu(gate) · up of token p against weight row
  i: the specification's hidden layer from the quantised activations and the two weight arrays as the region finds them.
-/
import proofs.«145767_j78151224918032_2_alg».proof.Proof.Gen.KernelIdeal.Frame
import proofs.«145767_j78151224918032_2_alg».proof.Proof.KPayload
import proofs.«145767_j78151224918032_2_alg».proof.Proof.QuantParts

set_option maxRecDepth 16384

noncomputable section

namespace Cert.KernelIdeal.KValue

open Cert.KernelIdeal Cert.KernelIdeal.Gen
open Idealize.ShloMosaic Idealize.ShloMosaic.TcCoe Idealize.ShloMosaic.ValueIdx Cert.QuantMLP
open Idealize.SL Idealize.SL.Sem
open Idealize.ShloMosaic.Pipeline (Dat Cfg Window)
open scoped BigOperators

variable (V : (c : Dev nD) → (b : Ref sig .tc) → Buf (Elt Ideal) ((c : Thread nD τ).loc b))

theorem offs_zero : (![0, 0] : Fin 2 → Nat) = fun _ => 0 := funext fun a => by fin_cases a <;> rfl

/-- The gate/up body's block at (p, q), when its three input blocks are the activations, and rows r q of the two
    weight arrays: the hidden layer at (p, r q). -/
theorem pay0_block (x0 : Vec Ideal S256x4096 .bf16) (x1 x2 : Vec Ideal S256x4096 .f32)
    (a : Fin 256 → Fin 4096 → EReal) (wg wu : Fin 11008 → Fin 4096 → EReal) (r : Fin 256 → Fin 11008)
    (h0 : ∀ p k, x0 (ix2 p k) = a p k) (h1 : ∀ q k, x1 (ix2 q k) = wg (r q) k) (h2 : ∀ q k, x2 (ix2 q k) = wu (r q) k)
    (p q : Fin 256) : k0_pay1 (F := Ideal) x0 x1 x2 (ix2 p q) = hidOf a wg wu p (r q) := by
  rw [pay0_apply]
  simp only [h0, h1, h2]
  rfl

/-- The index maps of the gate/up pipeline's windows, decided over its grid: the activations do not move, the weight
    tiles move down the rows, the output moves along the columns. -/
theorem idx0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val ∧ t.val < 43 :=
  (by decide +kernel : ∀ t : Fin grid0.N, _)

/-- Row (or column) 256·t + q of the 11008. -/
def row0 (t : Nat) (ht : t < 43) (q : Fin 256) : Fin 11008 := ⟨t * 256 + q.val, by have := q.isLt; omega⟩

/-- The activations as the region finds them. -/
abbrev A0 (c : Dev nD) : Fin 256 → Fin 4096 → EReal := fun p k => V c main_v11 (ix2 p k)
/-- The gate weights as the region finds them. -/
abbrev WG0 (c : Dev nD) : Fin 11008 → Fin 4096 → EReal := fun i k => V c main_arg1 (ix2 i k)
/-- The up weights as the region finds them. -/
abbrev WU0 (c : Dev nD) : Fin 11008 → Fin 4096 → EReal := fun i k => V c main_arg2 (ix2 i k)

/-- The hidden array: the hidden layer of the three arrays, entry by entry. -/
def H0 (c : Dev nD) : S256x11008.Idx → EReal := fun i => hidOf (A0 V c) (WG0 V c) (WU0 V c) (i 0) (i 1)

/-- What point t writes back is block t of the hidden array. -/
theorem flushed0 (c : Dev nD) (t : Fin cfg0.N) :
    (dat0 V c).flushed 3 t = ((cfg0.win 3).blk t).view.read (Elt Ideal) (H0 V c) := by
  show (cfg0.win 3).cut (grid0.coords t) ((dat0 V c).after 3 t) = _
  rw [after0_3]
  unfold out0_3
  rw [View.canon_unit_zero offs_zero]
  simp only [View.ld_unit_zero (S := S256x4096) offs_zero]
  obtain ⟨e00, e01, e10, e11, e20, e21, e30, e31, ht⟩ := idx0 t
  funext j
  obtain ⟨p, q, rfl⟩ : ∃ (p q : Fin 256), j = ix2 p q := ⟨j 0, j 1, eq_ix2 j⟩
  show k0_pay1 (F := Ideal) (iblk0 V c 0 t) (iblk0 V c 1 t) (iblk0 V c 2 t) (ix2 p q)
    = H0 V c (((cfg0.win 3).blk t).view.emb (ix2 p q))
  refine (pay0_block (iblk0 V c 0 t) (iblk0 V c 1 t) (iblk0 V c 2 t) (A0 V c) (WG0 V c) (WU0 V c) (row0 t.val ht) ?_ ?_ ?_ p q).trans ?_
  · intro p k
    show V c main_v11 (((cfg0.win 0).blk t).view.emb (ix2 p k)) = V c main_v11 (ix2 p k)
    refine congrArg (V c main_v11) (funext fun ax => Fin.ext ?_)
    match ax with
    | ⟨0, _⟩ => show win0_0.index t (0 : Fin 2) * 256 + 1 * p.val = p.val; omega
    | ⟨1, _⟩ => show win0_0.index t (1 : Fin 2) * 4096 + 1 * k.val = k.val; omega
  · intro q k
    show V c main_arg1 (((cfg0.win 1).blk t).view.emb (ix2 q k)) = V c main_arg1 (ix2 (row0 t.val ht q) k)
    refine congrArg (V c main_arg1) (funext fun ax => Fin.ext ?_)
    match ax with
    | ⟨0, _⟩ => show win0_1.index t (0 : Fin 2) * 256 + 1 * q.val = t.val * 256 + q.val; omega
    | ⟨1, _⟩ => show win0_1.index t (1 : Fin 2) * 4096 + 1 * k.val = k.val; omega
  · intro q k
    show V c main_arg2 (((cfg0.win 2).blk t).view.emb (ix2 q k)) = V c main_arg2 (ix2 (row0 t.val ht q) k)
    refine congrArg (V c main_arg2) (funext fun ax => Fin.ext ?_)
    match ax with
    | ⟨0, _⟩ => show win0_2.index t (0 : Fin 2) * 256 + 1 * q.val = t.val * 256 + q.val; omega
    | ⟨1, _⟩ => show win0_2.index t (1 : Fin 2) * 4096 + 1 * k.val = k.val; omega
  · have he : ((cfg0.win 3).blk t).view.emb (ix2 p q) = ix2 p (row0 t.val ht q) := funext fun ax => Fin.ext (by
      match ax with
      | ⟨0, _⟩ => show win0_3.index t (0 : Fin 2) * 256 + 1 * p.val = p.val; omega
      | ⟨1, _⟩ => show win0_3.index t (1 : Fin 2) * 256 + 1 * q.val = t.val * 256 + q.val; omega)
    rw [he]
    rfl

/-- An index of the hidden array is in point t's block iff each coordinate is in the block's range. -/
theorem mem_blk0 (t : Fin cfg0.N) (i : S256x11008.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v12).slice (win0_3.rect t)).set ↔ _
  rw [View.set_slice_whole, Rect.mem_set_unit]
  exact Iff.rfl

/-- Every block index 0 … 42 along the columns is some point's. -/
theorem idx0_onto : ∀ q : Fin 43, ∃ t : Fin cfg0.N, win0_3.index t = ![0, q.val] :=
  (by decide +kernel : ∀ q : Fin 43, ∃ t : Fin grid0.N, win0_3.index t = ![0, q.val])

/-- The column blocks tile the hidden array. -/
theorem cover0 (i : S256x11008.Idx) :
    ∃ t : Fin cfg0.N, (cfg0.win 3).flush t = true ∧ i ∈ ((cfg0.win 3).blk t).view.set := by
  have hi0 : (i 0).val < 256 := (i 0).isLt
  have hi1 : (i 1).val < 11008 := (i 1).isLt
  obtain ⟨t, ht⟩ := idx0_onto ⟨(i 1).val / 256, by omega⟩
  have q0 : win0_3.index t (0 : Fin 2) = 0 := congrFun ht 0
  have q1 : win0_3.index t (1 : Fin 2) = (i 1).val / 256 := congrFun ht 1
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

/-- After the pipeline the hidden array holds the hidden layer. -/
theorem final0 (c : Dev nD) : (dat0 V c).arrAt 3 cfg0.N = H0 V c :=
  (dat0 V c).arrAt_eq_of_cover 3 (H0 V c) (fun t _ => flushed0 V c t) (cover0)

end Cert.KernelIdeal.KValue

end
-- ==== Proof.KRegion1.lean ====
/-
  The down pipeline's output array.

  The pipeline has 32 points. At point t it holds all of the quantised hidden layer (256 × 11008) and rows
  128·t … 128·t+127 of the down weights, and writes back columns 128·t … 128·t+127 of the 256 × 4096 output. The 32
  column blocks tile the output, so after the pipeline entry (p, n) is the quantised hidden row p against the quantised
  down-weight row n: the specification's output stage from the two arrays as the region finds them.
-/
import proofs.«145767_j78151224918032_2_alg».proof.Proof.Gen.KernelIdeal.Frame
import proofs.«145767_j78151224918032_2_alg».proof.Proof.KPayload
import proofs.«145767_j78151224918032_2_alg».proof.Proof.QuantParts

set_option maxRecDepth 16384

noncomputable section

namespace Cert.KernelIdeal.KValue

open Cert.KernelIdeal Cert.KernelIdeal.Gen
open Idealize.ShloMosaic Idealize.ShloMosaic.TcCoe Idealize.ShloMosaic.ValueIdx Cert.QuantMLP
open Idealize.SL Idealize.SL.Sem
open Idealize.ShloMosaic.Pipeline (Dat Cfg Window)
open scoped BigOperators

variable (V : (c : Dev nD) → (b : Ref sig .tc) → Buf (Elt Ideal) ((c : Thread nD τ).loc b))

theorem offs_zero1 : (![0, 0] : Fin 2 → Nat) = fun _ => 0 := funext fun a => by fin_cases a <;> rfl

/-- The down body's block at (p, q), when its input blocks are the quantised hidden layer and rows r q of the down
    weights: the output at (p, r q). -/
theorem pay1_block (x0 : Vec Ideal S256x11008 .bf16) (x1 : Vec Ideal S128x11008 .f32)
    (h : Fin 256 → Fin 11008 → EReal) (wd : Fin 4096 → Fin 11008 → EReal) (r : Fin 128 → Fin 4096)
    (h0 : ∀ p i, x0 (ix2 p i) = h p i) (h1 : ∀ q i, x1 (ix2 q i) = wd (r q) i)
    (p : Fin 256) (q : Fin 128) : k1_pay1 (F := Ideal) x0 x1 (ix2 p q) = outOf h wd p (r q) := by
  rw [pay1_apply]
  simp only [h0, h1]
  rfl

/-- The index maps of the down pipeline's windows, decided over its grid: the hidden layer does not move, the weight
    tile moves down the rows, the output moves along the columns. -/
theorem idx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val ∧ t.val < 32 :=
  (by decide +kernel : ∀ t : Fin grid1.N, _)

/-- Row (or column) 128·t + q of the 4096. -/
def row1 (t : Nat) (ht : t < 32) (q : Fin 128) : Fin 4096 := ⟨t * 128 + q.val, by have := q.isLt; omega⟩

/-- The quantised hidden layer as the region finds it. -/
abbrev HQ1 (c : Dev nD) : Fin 256 → Fin 11008 → EReal := fun p i => V c main_v23 (ix2 p i)
/-- The down weights as the region finds them. -/
abbrev WD1 (c : Dev nD) : Fin 4096 → Fin 11008 → EReal := fun n i => V c main_arg3 (ix2 n i)

/-- The output array: the output stage of the two arrays, entry by entry. -/
def D1 (c : Dev nD) : S256x4096.Idx → EReal := fun i => outOf (HQ1 V c) (WD1 V c) (i 0) (i 1)

/-- What point t writes back is block t of the output array. -/
theorem flushed1 (c : Dev nD) (t : Fin cfg1.N) :
    (dat1 V c).flushed 2 t = ((cfg1.win 2).blk t).view.read (Elt Ideal) (D1 V c) := by
  show (cfg1.win 2).cut (grid1.coords t) ((dat1 V c).after 2 t) = _
  rw [after1_2]
  unfold out1_2
  rw [View.canon_unit_zero offs_zero1]
  simp only [View.ld_unit_zero (S := S256x11008) offs_zero1, View.ld_unit_zero (S := S128x11008) offs_zero1]
  obtain ⟨e00, e01, e10, e11, e20, e21, ht⟩ := idx1 t
  funext j
  obtain ⟨p, q, rfl⟩ : ∃ (p : Fin 256) (q : Fin 128), j = ix2 p q := ⟨j 0, j 1, eq_ix2 j⟩
  show k1_pay1 (F := Ideal) (iblk1 V c 0 t) (iblk1 V c 1 t) (ix2 p q)
    = D1 V c (((cfg1.win 2).blk t).view.emb (ix2 p q))
  refine (pay1_block (iblk1 V c 0 t) (iblk1 V c 1 t) (HQ1 V c) (WD1 V c) (row1 t.val ht) ?_ ?_ p q).trans ?_
  · intro p i
    show V c main_v23 (((cfg1.win 0).blk t).view.emb (ix2 p i)) = V c main_v23 (ix2 p i)
    refine congrArg (V c main_v23) (funext fun ax => Fin.ext ?_)
    match ax with
    | ⟨0, _⟩ => show win1_0.index t (0 : Fin 2) * 256 + 1 * p.val = p.val; omega
    | ⟨1, _⟩ => show win1_0.index t (1 : Fin 2) * 11008 + 1 * i.val = i.val; omega
  · intro q i
    show V c main_arg3 (((cfg1.win 1).blk t).view.emb (ix2 q i)) = V c main_arg3 (ix2 (row1 t.val ht q) i)
    refine congrArg (V c main_arg3) (funext fun ax => Fin.ext ?_)
    match ax with
    | ⟨0, _⟩ => show win1_1.index t (0 : Fin 2) * 128 + 1 * q.val = t.val * 128 + q.val; omega
    | ⟨1, _⟩ => show win1_1.index t (1 : Fin 2) * 11008 + 1 * i.val = i.val; omega
  · have he : ((cfg1.win 2).blk t).view.emb (ix2 p q) = ix2 p (row1 t.val ht q) := funext fun ax => Fin.ext (by
      match ax with
      | ⟨0, _⟩ => show win1_2.index t (0 : Fin 2) * 256 + 1 * p.val = p.val; omega
      | ⟨1, _⟩ => show win1_2.index t (1 : Fin 2) * 128 + 1 * q.val = t.val * 128 + q.val; omega)
    rw [he]
    rfl

/-- An index of the output array is in point t's block iff each coordinate is in the block's range. -/
theorem mem_blk1 (t : Fin cfg1.N) (i : S256x4096.Idx) :
    i ∈ ((cfg1.win 2).blk t).view.set ↔ ∀ a : Fin 2, win1_2.index t a * S256x128.size a ≤ (i a).val
      ∧ (i a).val < win1_2.index t a * S256x128.size a + S256x128.size a := by
  show i ∈ ((View.whole main_v24).slice (win1_2.rect t)).set ↔ _
  rw [View.set_slice_whole, Rect.mem_set_unit]
  exact Iff.rfl

/-- Every block index 0 … 31 along the columns is some point's. -/
theorem idx1_onto : ∀ q : Fin 32, ∃ t : Fin cfg1.N, win1_2.index t = ![0, q.val] :=
  (by decide +kernel : ∀ q : Fin 32, ∃ t : Fin grid1.N, win1_2.index t = ![0, q.val])

/-- The column blocks tile the output array. -/
theorem cover1 (i : S256x4096.Idx) :
    ∃ t : Fin cfg1.N, (cfg1.win 2).flush t = true ∧ i ∈ ((cfg1.win 2).blk t).view.set := by
  have hi0 : (i 0).val < 256 := (i 0).isLt
  have hi1 : (i 1).val < 4096 := (i 1).isLt
  obtain ⟨t, ht⟩ := idx1_onto ⟨(i 1).val / 128, by omega⟩
  have q0 : win1_2.index t (0 : Fin 2) = 0 := congrFun ht 0
  have q1 : win1_2.index t (1 : Fin 2) = (i 1).val / 128 := congrFun ht 1
  refine ⟨t, flush1_2 t, ?_⟩
  rw [mem_blk1]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 128 ≤ (i 1).val ∧ (i 1).val < win1_2.index t (1 : Fin 2) * 128 + 128; omega

/-- After the pipeline the output array holds the output stage. -/
theorem final1 (c : Dev nD) : (dat1 V c).arrAt 2 cfg1.N = D1 V c :=
  (dat1 V c).arrAt_eq_of_cover 2 (D1 V c) (fun t _ => flushed1 V c t) (cover1)

end Cert.KernelIdeal.KValue

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.QuantMathScalar.lean ====
/-
  Scalar facts behind the two arrangements of the fake-quantised MLP.

  On real numbers the straight-through form v + (q − v) is q itself, whatever extended real q is. For a real w whose
  absolute value is at most M ≥ 0, the step s = M / 127 + ε is a positive real, |w / s| < 127 strictly, so rounding
  w / s to the nearest integer lands in [−127, 127] and the clip to [−128, 127] leaves it alone: the clipped quotient
  form and the unclipped reciprocal-product form of the quantised entry coincide and are real. The two spellings of
  silu agree everywhere, and every operation involved keeps real numbers real.
-/
import proofs.«145767_j78151224918032_2_alg».proof.Proof.QuantSpec
import proofs.«145767_j78151224918032_2_alg».proof.Proof.QuantConsts
import proofs.«145767_j78151224918032_2_alg».proof.Proof.LibERealSums

noncomputable section

namespace Cert.QuantMLP

open Idealize.ShloMosaic
open scoped BigOperators

/-! ### Real numbers stay real -/

/-- A coerced real is real. -/
theorem isReal_coe (r : ℝ) : IsReal (r : EReal) := ⟨r, rfl⟩

/-- The product of two reals is real. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of reals is real. -/
theorem isReal_sum {α : Type} (s : Finset α) (f : α → EReal) (hf : ∀ a, IsReal (f a)) : IsReal (∑ a ∈ s, f a) := by
  choose g hg using hf
  refine ⟨∑ a ∈ s, g a, ?_⟩
  rw [← Cert.Lib.ERealSums.coe_sum_real]
  exact Finset.sum_congr rfl fun a _ => hg a

/-! ### The straight-through form on reals -/

/-- For a real v and any extended real y, v + (y − v) = y: at y = ±∞ both sides are that infinity, and on reals it
    is the cancellation in ℝ. -/
theorem coe_add_sub_cancel (v : ℝ) (y : EReal) : (v : EReal) + (y - v) = y := by
  induction y using EReal.rec with
  | bot => rw [EReal.bot_sub, EReal.add_bot]
  | coe r => rw [← EReal.coe_sub, ← EReal.coe_add]; congr 1; ring
  | top => rw [EReal.top_sub_coe, EReal.coe_add_top]

/-- On a real entry the straight-through form is the clipped form, for any step. -/
theorem qS_eq_qA {v : EReal} (hv : IsReal v) (s : EReal) : qS v s = qA v s := by
  obtain ⟨r, rfl⟩ := hv
  exact coe_add_sub_cancel r _

/-! ### The step -/

/-- The step from a real maximum M is the real M / 127 + ε with ε > 0. -/
theorem scaleOf_coe (M : ℝ) : ∃ e : ℝ, 0 < e ∧ scaleOf (M : EReal) = ((M / 127 + e : ℝ) : EReal) := by
  obtain ⟨e, he, hw⟩ := weps_pos
  refine ⟨e, he, ?_⟩
  rw [scaleOf, hw, w127_eq, Ideal.div_coe (by norm_num : (127 : ℝ) ≠ 0), ← EReal.coe_mul, ← EReal.coe_add]
  congr 1; ring

/-! ### Rounding and the clip -/

/-- Rounding to nearest, ties to even, gives the floor or the floor plus one. -/
theorem roundHalfEven_mem (r : ℝ) : Ideal.roundHalfEven r = ⌊r⌋ ∨ Ideal.roundHalfEven r = ⌊r⌋ + 1 := by
  unfold Ideal.roundHalfEven
  simp only
  split_ifs <;> simp

/-- For −127 < r < 127 the rounded value is an integer in [−127, 127]: the floor lies in [−127, 126]. -/
theorem roundHalfEven_bounds {r : ℝ} (hlo : -127 < r) (hhi : r < 127) :
    (-127 : ℝ) ≤ (Ideal.roundHalfEven r : ℝ) ∧ (Ideal.roundHalfEven r : ℝ) ≤ 127 := by
  have h1 : (-127 : ℤ) ≤ ⌊r⌋ := Int.le_floor.mpr (by push_cast; linarith)
  have h2 : ⌊r⌋ < (127 : ℤ) := Int.floor_lt.mpr (by push_cast; linarith)
  have h3 : (-127 : ℤ) ≤ Ideal.roundHalfEven r ∧ Ideal.roundHalfEven r ≤ (127 : ℤ) := by
    rcases roundHalfEven_mem r with h | h <;> rw [h] <;> constructor <;> omega
  exact ⟨by exact_mod_cast h3.1, by exact_mod_cast h3.2⟩

/-- The clip of a real is real. -/
theorem clip_coe (r : ℝ) : clip (r : EReal) = ((min 127 (max (-128) r) : ℝ) : EReal) := by
  rw [clip, w127_eq, wm128_eq, Cert.Lib.ERealSums.coe_max_real]
  exact (EReal.coe_strictMono.monotone.map_min).symm

/-- The clip leaves a real in [−128, 127] alone. -/
theorem clip_coe_of_mem {r : ℝ} (hlo : -128 ≤ r) (hhi : r ≤ 127) : clip (r : EReal) = (r : EReal) := by
  rw [clip_coe, max_eq_right hlo, min_eq_right hhi]

/-! ### The quantised entry -/

/-- The quantised entry as a real number: round(w · (1/s)) · s. -/
def qReal (w s : ℝ) : ℝ := (Ideal.roundHalfEven (w * (1 / s)) : ℝ) * s

/-- For a nonzero real step the reciprocal-product form of a real entry is the real round(w · (1/s)) · s. -/
theorem qW_coe (w : ℝ) {s : ℝ} (hs : s ≠ 0) : qW (w : EReal) (s : EReal) = ((qReal w s : ℝ) : EReal) := by
  rw [qW, wone_eq, Ideal.div_coe hs, one_mul, ← EReal.coe_mul, rne, Ideal.liftRound_coe, ← EReal.coe_mul]
  rfl

/-- For a nonzero real step the clipped quotient form of a real entry is real. -/
theorem qA_coe (x : ℝ) {s : ℝ} (hs : s ≠ 0) :
    qA (x : EReal) (s : EReal)
      = ((min 127 (max (-128) (Ideal.roundHalfEven (x * (1 / s)) : ℝ)) * s : ℝ) : EReal) := by
  rw [qA, Ideal.div_coe hs, ← EReal.coe_mul, rne, Ideal.liftRound_coe, clip_coe, ← EReal.coe_mul]

/-- If |w| ≤ M and ε > 0 then |w · (1 / (M/127 + ε))| < 127: indeed |w| ≤ M < 127 · (M/127 + ε). -/
theorem abs_mul_inv_step_lt {w M e : ℝ} (hw : |w| ≤ M) (he : 0 < e) :
    -127 < w * (1 / (M / 127 + e)) ∧ w * (1 / (M / 127 + e)) < 127 := by
  have hM : 0 ≤ M := le_trans (abs_nonneg w) hw
  have hs : 0 < M / 127 + e := by positivity
  have hb := abs_le.mp hw
  rw [mul_one_div, lt_div_iff₀ hs, div_lt_iff₀ hs]
  constructor <;> nlinarith

/-- With |w| ≤ M and step s = M/127 + ε, the clipped quotient form and the reciprocal-product form of the quantised
    entry are the same real number. -/
theorem qA_eq_qW_coe {w M e : ℝ} (hw : |w| ≤ M) (he : 0 < e) :
    qA (w : EReal) ((M / 127 + e : ℝ) : EReal) = ((qReal w (M / 127 + e) : ℝ) : EReal) := by
  have hM : 0 ≤ M := le_trans (abs_nonneg w) hw
  have hs : M / 127 + e ≠ 0 := by positivity
  obtain ⟨h1, h2⟩ := abs_mul_inv_step_lt hw he
  obtain ⟨h3, h4⟩ := roundHalfEven_bounds h1 h2
  rw [qA_coe w hs, max_eq_right (by linarith), min_eq_right h4]
  rfl

/-- For a real entry w with |w| ≤ M, M real, and the step taken from M: the straight-through form equals the
    reciprocal-product form, and the value is real. -/
theorem qS_eq_qW_of_abs_le {w M : ℝ} (hw : |w| ≤ M) :
    qS (w : EReal) (scaleOf (M : EReal)) = qW (w : EReal) (scaleOf (M : EReal))
      ∧ IsReal (qW (w : EReal) (scaleOf (M : EReal))) := by
  obtain ⟨e, he, hsc⟩ := scaleOf_coe M
  have hM : 0 ≤ M := le_trans (abs_nonneg w) hw
  have hs : M / 127 + e ≠ 0 := by positivity
  rw [hsc, qS_eq_qA (isReal_coe w), qA_eq_qW_coe hw he, qW_coe w hs]
  exact ⟨rfl, isReal_coe _⟩

/-- For a real entry and a step taken from a nonnegative real maximum, the clipped quotient form is real. -/
theorem isReal_qA_scaleOf (x : ℝ) {M : ℝ} (hM : 0 ≤ M) : IsReal (qA (x : EReal) (scaleOf (M : EReal))) := by
  obtain ⟨e, he, hsc⟩ := scaleOf_coe M
  have hs : M / 127 + e ≠ 0 := by positivity
  rw [hsc, qA_coe x hs]
  exact isReal_coe _

/-! ### silu -/

/-- The two spellings of silu agree at every extended real: the word of 1 is 1, and the logistic function is by
    definition 1 / (1 + e^(−g)). -/
theorem siluR_eq_siluK (g : EReal) : siluR g = siluK g := by
  rw [siluR, siluK, wone_eq]
  rfl

/-- silu of a real is real. -/
theorem isReal_siluK {g : EReal} (hg : IsReal g) : IsReal (siluK g) := by
  obtain ⟨r, rfl⟩ := hg
  rw [siluK, Ideal.logistic_coe]
  exact (isReal_coe r).mul (isReal_coe _)

end Cert.QuantMLP

end
-- ==== Proof.QuantMath.lean ====
/-
  The two arrangements of the fake-quantised MLP agree on real-valued arrays, and the first arrangement is computed
  row by row.

  The largest absolute value of a real-valued array over nonempty finite index types is attained, so it is a real
  number that bounds every |entry|. Hence each weight row and each activation array is quantised against a positive
  real step: the straight-through form equals the clipped form (on reals), the clipped form equals the unclipped
  reciprocal-product form for weights (the rounded quotient already lies in [−127, 127]), and every quantised entry is
  real. Finite sums of products of reals are real and silu of a real is real, so the hidden layer is real-valued and
  the same in both arrangements; then so is the MLP. For the reindexing: the only quantity not computed row by row
  is the maximum over the whole array, and a supremum over a surjectively reindexed family is the same supremum.
-/
import proofs.«145767_j78151224918032_2_alg».proof.Proof.QuantMathScalar

noncomputable section

namespace Cert.QuantMLP

open Idealize.ShloMosaic
open scoped BigOperators

/-! ### Maxima of absolute values of real arrays -/

/-- The absolute value of a real, as both programs compute it, is the real absolute value. -/
theorem absE_coe (r : ℝ) : absE (r : EReal) = ((|r| : ℝ) : EReal) := by
  rw [absE, ← EReal.coe_neg, Cert.Lib.ERealSums.coe_max_real, abs_eq_max_neg]

/-- The largest absolute value of a row of reals over a nonempty finite index type is attained: it is a real that
    bounds every |entry| of the row. -/
theorem amaxRow_coe {α β : Type} [Finite β] [Nonempty β] (f : α → β → ℝ) (i : α) :
    ∃ M : ℝ, amaxRow (fun i k => ((f i k : ℝ) : EReal)) i = (M : EReal) ∧ ∀ k, |f i k| ≤ M := by
  obtain ⟨k0, hk0⟩ := exists_eq_ciSup_of_finite (f := fun k => absE ((f i k : ℝ) : EReal))
  simp only [absE_coe] at hk0
  refine ⟨|f i k0|, ?_, fun k => ?_⟩
  · simp only [amaxRow, absE_coe]
    exact hk0.symm
  · have h := le_iSup (fun k => ((|f i k| : ℝ) : EReal)) k
    rw [← hk0] at h
    exact_mod_cast h

/-- The largest absolute value of a whole array of reals over nonempty finite index types is attained: it is a real
    that bounds every |entry|. -/
theorem amaxAll_coe {α β : Type} [Finite α] [Nonempty α] [Finite β] [Nonempty β] (f : α → β → ℝ) :
    ∃ M : ℝ, amaxAll (fun r k => ((f r k : ℝ) : EReal)) = (M : EReal) ∧ ∀ r k, |f r k| ≤ M := by
  obtain ⟨r0, hr0⟩ := exists_eq_ciSup_of_finite (f := fun r => ⨆ k, ((|f r k| : ℝ) : EReal))
  obtain ⟨k0, hk0⟩ := exists_eq_ciSup_of_finite (f := fun k => ((|f r0 k| : ℝ) : EReal))
  refine ⟨|f r0 k0|, ?_, fun r k => ?_⟩
  · simp only [amaxAll, absE_coe]
    rw [← hr0, ← hk0]
  · have h1 := le_iSup (fun k => ((|f r k| : ℝ) : EReal)) k
    have h2 := le_iSup (fun r => ⨆ k, ((|f r k| : ℝ) : EReal)) r
    have h3 := h1.trans h2
    rw [← hr0, ← hk0] at h3
    exact_mod_cast h3

/-! ### Weights -/

/-- On a real-valued weight array over a nonempty finite column type the straight-through quantisation is the
    reciprocal-product quantisation, and the quantised array is real-valued. -/
theorem wR_eq_wK {α β : Type} [Finite β] [Nonempty β] (w : α → β → EReal) (hw : ∀ i k, IsReal (w i k)) :
    wR w = wK w ∧ ∀ i k, IsReal (wK w i k) := by
  choose f hf using hw
  obtain rfl : w = fun i k => ((f i k : ℝ) : EReal) := funext fun i => funext fun k => hf i k
  have key : ∀ i k,
      qS ((f i k : ℝ) : EReal) (scaleOf (amaxRow (fun i k => ((f i k : ℝ) : EReal)) i))
          = qW ((f i k : ℝ) : EReal) (scaleOf (amaxRow (fun i k => ((f i k : ℝ) : EReal)) i))
        ∧ IsReal (qW ((f i k : ℝ) : EReal) (scaleOf (amaxRow (fun i k => ((f i k : ℝ) : EReal)) i))) := by
    intro i k
    obtain ⟨M, hM, hle⟩ := amaxRow_coe f i
    rw [hM]
    exact qS_eq_qW_of_abs_le (hle k)
  exact ⟨funext fun i => funext fun k => (key i k).1, fun i k => (key i k).2⟩

/-! ### Activations -/

/-- On a real-valued array the straight-through quantisation of activations is the clipped one. -/
theorem actR_eq_actK {α β : Type} (x : α → β → EReal) (hx : ∀ r k, IsReal (x r k)) : actR x = actK x :=
  funext fun r => funext fun k => qS_eq_qA (hx r k) _

/-- The quantised activations of a real-valued array over nonempty finite index types are real. -/
theorem isReal_actK {α β : Type} [Finite α] [Nonempty α] [Finite β] [Nonempty β] (x : α → β → EReal)
    (hx : ∀ r k, IsReal (x r k)) : ∀ r k, IsReal (actK x r k) := by
  choose f hf using hx
  obtain rfl : x = fun r k => ((f r k : ℝ) : EReal) := funext fun r => funext fun k => hf r k
  obtain ⟨M, hM, hle⟩ := amaxAll_coe f
  intro r k
  have hM0 : 0 ≤ M := (abs_nonneg _).trans (hle r k)
  show IsReal (qA ((f r k : ℝ) : EReal) (scaleOf (amaxAll fun r k => ((f r k : ℝ) : EReal))))
  rw [hM]
  exact isReal_qA_scaleOf _ hM0

/-! ### The hidden layer and the MLP -/

section
variable {ρ κ ι ν : Type} [Fintype ρ] [Fintype κ] [Fintype ι] [Fintype ν] [Nonempty ρ] [Nonempty κ] [Nonempty ι]

/-- The hidden layer of real-valued arrays is real-valued: sums of products of reals, silu of a real and a product
    of reals are real. -/
theorem isReal_hidK (x : ρ → κ → EReal) (wg wu : ι → κ → EReal)
    (hx : ∀ r k, IsReal (x r k)) (hg : ∀ i k, IsReal (wg i k)) (hu : ∀ i k, IsReal (wu i k)) :
    ∀ r i, IsReal (hidK x wg wu r i) := by
  intro r i
  have ha := isReal_actK x hx
  have hg' := (wR_eq_wK wg hg).2
  have hu' := (wR_eq_wK wu hu).2
  exact (isReal_siluK (isReal_sum _ _ fun k => (ha r k).mul (hg' i k))).mul
    (isReal_sum _ _ fun k => (ha r k).mul (hu' i k))

omit [Fintype ρ] [Nonempty ρ] in
/-- On real-valued arrays the hidden layer is the same in both arrangements. -/
theorem hidR_eq_hidK (x : ρ → κ → EReal) (wg wu : ι → κ → EReal)
    (hx : ∀ r k, IsReal (x r k)) (hg : ∀ i k, IsReal (wg i k)) (hu : ∀ i k, IsReal (wu i k)) :
    hidR x wg wu = hidK x wg wu := by
  funext r i
  unfold hidR hidK
  rw [actR_eq_actK x hx, (wR_eq_wK wg hg).1, (wR_eq_wK wu hu).1, siluR_eq_siluK]

/-- On real-valued arrays (tokens, input features and intermediate channels indexed by nonempty finite types) the two
    arrangements of the MLP are the same function. -/
theorem mlpR_eq_mlpK (x : ρ → κ → EReal) (wg wu : ι → κ → EReal) (wd : ν → ι → EReal)
    (hx : ∀ r k, IsReal (x r k)) (hg : ∀ i k, IsReal (wg i k)) (hu : ∀ i k, IsReal (wu i k))
    (hd : ∀ n i, IsReal (wd n i)) :
    mlpR x wg wu wd = mlpK x wg wu wd := by
  funext r n
  unfold mlpR mlpK
  rw [hidR_eq_hidK x wg wu hx hg hu, actR_eq_actK _ (isReal_hidK x wg wu hx hg hu), (wR_eq_wK wd hd).1]

end

/-! ### Reindexing the tokens -/

/-- The largest absolute value of an array whose rows are reindexed along a surjection is unchanged. -/
theorem amaxAll_reindex {α α' β : Type} (e : α' → α) (he : Function.Surjective e) (x : α → β → EReal) :
    amaxAll (fun a k => x (e a) k) = amaxAll x := by
  unfold amaxAll
  exact he.iSup_comp (fun r => ⨆ k, absE (x r k))

/-- Quantising the activations commutes with reindexing the rows along a surjection. -/
theorem actK_reindex {α α' β : Type} (e : α' → α) (he : Function.Surjective e) (x : α → β → EReal) :
    actK (fun a k => x (e a) k) = fun a k => actK x (e a) k := by
  funext a k
  unfold actK
  rw [amaxAll_reindex e he x]

section
variable {ρ ρ' κ ι ν : Type} [Fintype κ] [Fintype ι]

/-- The hidden layer commutes with reindexing the tokens along a surjection. -/
theorem hidK_reindex (e : ρ' → ρ) (he : Function.Surjective e)
    (x : ρ → κ → EReal) (wg wu : ι → κ → EReal) :
    hidK (fun a k => x (e a) k) wg wu = fun a i => hidK x wg wu (e a) i := by
  funext a i
  unfold hidK
  rw [actK_reindex e he x]

/-- The MLP commutes with reindexing the tokens along a surjection: every stage is computed row by row except the two
    whole-array maxima, which a surjective reindexing does not change. -/
theorem mlpK_reindex (e : ρ' → ρ) (he : Function.Surjective e)
    (x : ρ → κ → EReal) (wg wu : ι → κ → EReal) (wd : ν → ι → EReal) (r' : ρ') (n : ν) :
    mlpK (fun a k => x (e a) k) wg wu wd r' n = mlpK x wg wu wd (e r') n := by
  unfold mlpK
  rw [hidK_reindex e he x wg wu, actK_reindex e he (hidK x wg wu)]

end

end Cert.QuantMLP

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.KFinal.lean ====
/-
  The idealised kernel program's result, as the specification's first arrangement.

  Read back through the program: the result is the down pipeline's output array reshaped from 256 × 4096 to
  8 × 32 × 4096; that array is the output stage of the down pipeline's entry arrays; the quantised hidden layer among
  them is the clipped quantisation of the gate/up pipeline's output array; that array is the hidden layer of the gate/up
  pipeline's entry arrays; and the quantised activations among those are the clipped quantisation of the input reshaped
  to 256 × 4096. Token (b, s) is row 32·b + s of the 256, and the whole-array maximum does not depend on how the tokens
  are numbered, so the result at (b, s, n) is the first arrangement of the MLP on the input indexed by pairs (b, s).
-/
import proofs.«145767_j78151224918032_2_alg».proof.Proof.KRegion0
import proofs.«145767_j78151224918032_2_alg».proof.Proof.KRegion1
import proofs.«145767_j78151224918032_2_alg».proof.Proof.QuantMath
import proofs.«145767_j78151224918032_2_alg».proof.Proof.LibMergeRows
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Cert.QuantMLP Idealize.ShloMosaic.Tactic
open Idealize.SL Idealize.SL.Sem
open Cert.Lib
open scoped BigOperators

variable (m : (ℓ : Loc nD τ sig) → Buf (Elt Ideal) ℓ) (ρ : Dev nD → PrngReg)

/-- The gate/up pipeline leaves the hidden layer of its entry arrays in the hidden array. -/
theorem W6_hidden (c : Dev nD) : W6 m ρ c (Proc.devRef .tc main_v12) = H0 (V5 m ρ) c :=
  (W6_arr m ρ c 3).trans (final0 (V5 m ρ) c)

/-- The down pipeline leaves the output stage of its entry arrays in the output array. -/
theorem W12_out (c : Dev nD) : W12 m ρ c (Proc.devRef .tc main_v24) = D1 (V11 m ρ) c :=
  (W12_arr m ρ c 2).trans (final1 (V11 m ρ) c)

/-- The result buffer is the output array reshaped. -/
theorem W13_result (c : Dev nD) :
    (W13 m ρ c (Proc.devRef .tc main_v25) : S8x32x4096.Idx → EReal)
      = shapeCast S8x32x4096 (D1 (V11 m ρ) c) shapeCasts_S256x4096_S8x32x4096 := by
  rw [← W12_out]
  show StableHlo.after hostOps2 (W12 m ρ c) (Proc.devRef .tc main_v25) = _
  after_results
  rfl

/-- The input reshaped to 256 tokens × 4096 features, by coordinates. -/
abbrev X2 (c : Dev nD) : Fin 256 → Fin 4096 → EReal := fun p k =>
  (shapeCast S256x4096 (m ((c : Thread nD τ).loc main_arg0)) shapeCasts_S8x32x4096_S256x4096 : S256x4096.Idx → EReal) (ix2 p k)
/-- The input by coordinates, tokens indexed by pairs. -/
abbrev X3 (c : Dev nD) : Fin 8 × Fin 32 → Fin 4096 → EReal := fun p k =>
  (m ((c : Thread nD τ).loc main_arg0) : S8x32x4096.Idx → EReal) (ix3 p.1 p.2 k)
/-- The gate, up and down weights by coordinates. -/
abbrev WG (c : Dev nD) : Fin 11008 → Fin 4096 → EReal := fun i k => (m ((c : Thread nD τ).loc main_arg1) : S11008x4096.Idx → EReal) (ix2 i k)
abbrev WU (c : Dev nD) : Fin 11008 → Fin 4096 → EReal := fun i k => (m ((c : Thread nD τ).loc main_arg2) : S11008x4096.Idx → EReal) (ix2 i k)
abbrev WD (c : Dev nD) : Fin 4096 → Fin 11008 → EReal := fun n i => (m ((c : Thread nD τ).loc main_arg3) : S4096x11008.Idx → EReal) (ix2 n i)

/-- Token (b, s) is row 32·b + s. -/
def tok : Fin 8 × Fin 32 → Fin 256 := fun p => MergeRows.flatRow (a := 8) (b := 32) (r := 256) rfl p.1 p.2

theorem tok_surjective : Function.Surjective tok := fun r =>
  ⟨(⟨r.val / 32, by have := r.isLt; omega⟩, ⟨r.val % 32, Nat.mod_lt _ (by norm_num)⟩), Fin.ext (by
    show r.val / 32 * 32 + r.val % 32 = r.val
    omega)⟩

/-- The reshaped input at token (b, s) is the input at (b, s). -/
theorem X2_tok (c : Dev nD) (p : Fin 8 × Fin 32) (k : Fin 4096) : X2 m c (tok p) k = X3 m c p k :=
  MergeRows.merge_apply (a := 8) (b := 32) (c := 4096) (r := 256) rfl _ _ p.1 p.2 k

/-- The result at (b, s, n), given what the two stretches of host operations leave at the pipelines' entries: the
    activations quantised whole, the weights untouched. -/
theorem result_apply (c : Dev nD)
    (hA : (W5 m ρ c (Proc.devRef .tc main_v11) : S256x4096.Idx → EReal) = fun i => actK (X2 m c) (i 0) (i 1))
    (hG : W5 m ρ c (Proc.devRef .tc main_arg1) = m ((c : Thread nD τ).loc main_arg1))
    (hU : W5 m ρ c (Proc.devRef .tc main_arg2) = m ((c : Thread nD τ).loc main_arg2))
    (hH : (W11 m ρ c (Proc.devRef .tc main_v23) : S256x11008.Idx → EReal)
      = fun i => actK (fun (p : Fin 256) (k : Fin 11008) => (W6 m ρ c (Proc.devRef .tc main_v12) : S256x11008.Idx → EReal) (ix2 p k)) (i 0) (i 1))
    (hD : W11 m ρ c (Proc.devRef .tc main_arg3) = m ((c : Thread nD τ).loc main_arg3))
    (b : Fin 8) (s : Fin 32) (n : Fin 4096) :
    (W13 m ρ c (Proc.devRef .tc main_v25) : S8x32x4096.Idx → EReal) (ix3 b s n)
      = mlpK (X3 m c) (WG m c) (WU m c) (WD m c) (b, s) n := by
  rw [W13_result, MergeRows.split_apply (a := 8) (b := 32) (c := 4096) (r := 256) rfl]
  -- the output stage of the down pipeline's entry arrays
  show outOf (HQ1 (V11 m ρ) c) (WD1 (V11 m ρ) c) (tok (b, s)) n = _
  have eA : A0 (V5 m ρ) c = actK (X2 m c) := by
    funext p k
    exact congrFun hA (ix2 p k)
  have eG : WG0 (V5 m ρ) c = WG m c := by
    funext i k
    exact congrFun hG (ix2 i k)
  have eU : WU0 (V5 m ρ) c = WU m c := by
    funext i k
    exact congrFun hU (ix2 i k)
  have eH : HQ1 (V11 m ρ) c = actK (hidOf (actK (X2 m c)) (WG m c) (WU m c)) := by
    funext p i
    refine (congrFun hH (ix2 p i)).trans ?_
    show actK (fun (p : Fin 256) (k : Fin 11008) => (W6 m ρ c (Proc.devRef .tc main_v12) : S256x11008.Idx → EReal) (ix2 p k)) p i = _
    rw [W6_hidden]
    show actK (fun p k => hidOf (A0 (V5 m ρ) c) (WG0 (V5 m ρ) c) (WU0 (V5 m ρ) c) p k) p i = _
    rw [eA, eG, eU]
  have eD : WD1 (V11 m ρ) c = WD m c := by
    funext n i
    exact congrFun hD (ix2 n i)
  rw [eH, eD, ← mlpK_eq]
  -- tokens renumbered by pairs
  rw [← mlpK_reindex tok tok_surjective (X2 m c) (WG m c) (WU m c) (WD m c) (b, s) n]
  refine congrFun (congrFun (congrArg (fun x => mlpK x (WG m c) (WU m c) (WD m c)) ?_) (b, s)) n
  funext p k
  exact X2_tok m c p k

end Cert.KernelIdeal.KValue

end
-- ==== Proof.KHostQuant.lean ====
/-
  One host stretch that quantises a matrix of activations, as a term, and that term read at an index.

  On an a × b array X of extended reals the stretch computes the maximum M of |X| over both axes (a running maximum
  from the word of −∞), the step s = M / 127 + ε, then min 127 (max (−128) (round(X / s))) · s entrywise, and a change
  of float format that is the identity on extended reals. The maximum over all indices of the array is the supremum
  over rows of the supremum along each row, because every index of the array is a pair (row, column); so the step is
  the one of the specification and each entry is the clipped quantised entry against it.
-/
import proofs.«145767_j78151224918032_2_alg».proof.Proof.QuantSpec
import proofs.«145767_j78151224918032_2_alg».proof.Proof.QuantConsts
import Idealize.ShloMosaic.Lib.ValueIdx
import Idealize.ShloMosaic.Lib.IdealHost
import Idealize.ShloMosaic.PureOps.Reduce
import Idealize.ShloMosaic.PureOps.Ideal.Laws

noncomputable section

namespace Cert.KernelIdeal.KHost

open Idealize.ShloMosaic Idealize.ShloMosaic.ValueIdx Cert.QuantMLP

/-- The rank-0 shape. -/
abbrev S0 : Shape := ⟨0, ![]⟩

/-- A maximum-reduction of a matrix over both axes, from the word of −∞, is the supremum over the rows of the supremum
    along each row. -/
theorem reduce_all2 {a b : Nat} {u : Shape} (x : (⟨2, ![a, b]⟩ : Shape).Idx → EReal) (init : u.Idx → EReal)
    (h : (⟨2, ![a, b]⟩ : Shape).ReducesTo [0, 1] S0) (hu : 0 < u.numel)
    (hinit : init (Shape.Idx.first hu) = wninf) (j : S0.Idx) :
    Host.reduce (FloatOps.maximumf (F := Ideal) (φ := .f32)) x init h hu j
      = ⨆ p : Fin a, ⨆ k : Fin b, x (ix2 p k) := by
  rw [Host.reduce_eq_fold, hinit,
    Finset.filter_true_of_mem (fun i _ => funext fun d => d.elim0)]
  show Finset.univ.fold max wninf x = _
  rw [fold_max_eq_iSup]
  refine Eq.trans ?_ (iSup_prod (f := fun q : Fin a × Fin b => x (ix2 q.1 q.2)))
  exact (Function.Surjective.iSup_comp (f := fun q : Fin a × Fin b => ix2 q.1 q.2)
    (fun i => ⟨(i 0, i 1), (eq_ix2 i).symm⟩) x).symm

section
variable {a b : Nat} (hr : (⟨2, ![a, b]⟩ : Shape).ReducesTo [0, 1] S0) (h0 : 0 < S0.numel)
  (hb : S0.BroadcastsInDim ⟨2, ![a, b]⟩ (![] : Fin 0 → Fin 2)) (hlt : FTy.bits .bf16 < FTy.bits .f32)
  (X : FVec Ideal ⟨2, ![a, b]⟩ .f32)

/-- The step of the stretch: the maximum of |X| over both axes, over 127, plus ε. -/
def stepTerm : FVec Ideal S0 .f32 :=
  addf (Host.divf (Host.reduce FloatOps.maximumf (Host.absf X) (constant (F := Ideal) S0 .f32 0xFF800000#32) hr h0)
    (constant (F := Ideal) S0 .f32 0x42FE0000#32)) (constant (F := Ideal) S0 .f32 0x322BCC77#32)

/-- The step of the stretch is the step of the specification taken from the whole array's largest absolute value. -/
theorem stepTerm_apply (j : S0.Idx) :
    stepTerm hr h0 X j = scaleOf (amaxAll fun (p : Fin a) (k : Fin b) => X (ix2 p k)) := by
  show Ideal.div (Host.reduce (FloatOps.maximumf (F := Ideal) (φ := .f32)) (Host.absf X)
      (constant (F := Ideal) S0 .f32 0xFF800000#32) hr h0 j) w127 + weps = _
  rw [reduce_all2 (Host.absf X) _ hr h0 rfl j]
  rfl

/-- The whole stretch: the entries divided by the broadcast step, rounded to nearest even, clipped between the
    broadcast words of −128 and 127, multiplied by the broadcast step, and changed to the narrower format. -/
def quantTerm : FVec Ideal ⟨2, ![a, b]⟩ .bf16 :=
  truncf .bf16
    (mulf
      (minimumf (broadcastInDim ⟨2, ![a, b]⟩ ![] hb (id (constant (F := Ideal) S0 .f32 0x42FE0000#32)))
        (maximumf (broadcastInDim ⟨2, ![a, b]⟩ ![] hb (id (constant (F := Ideal) S0 .f32 0xC3000000#32)))
          (Host.roundeven (Host.divf X (broadcastInDim ⟨2, ![a, b]⟩ ![] hb (stepTerm hr h0 X))))))
      (broadcastInDim ⟨2, ![a, b]⟩ ![] hb (stepTerm hr h0 X)))
    hlt

/-- The stretch at an index is the clipped quantised entry of the specification against the whole array's step. -/
theorem quantTerm_apply (i : (⟨2, ![a, b]⟩ : Shape).Idx) :
    (quantTerm hr h0 hb hlt X i : EReal) = actK (fun (p : Fin a) (k : Fin b) => X (ix2 p k)) (i 0) (i 1) := by
  show min (broadcastInDim ⟨2, ![a, b]⟩ ![] hb (id (constant (F := Ideal) S0 .f32 0x42FE0000#32)) i)
        (max (broadcastInDim ⟨2, ![a, b]⟩ ![] hb (id (constant (F := Ideal) S0 .f32 0xC3000000#32)) i)
          (Ideal.liftRound Ideal.roundHalfEven
            (Ideal.div (X i) (broadcastInDim ⟨2, ![a, b]⟩ ![] hb (stepTerm hr h0 X) i))))
      * broadcastInDim ⟨2, ![a, b]⟩ ![] hb (stepTerm hr h0 X) i = _
  rw [broadcastInDim_scalar_apply, broadcastInDim_scalar_apply, broadcastInDim_scalar_apply, stepTerm_apply]
  exact congrArg (fun z => qA (X z) (scaleOf (amaxAll fun (p : Fin a) (k : Fin b) => X (ix2 p k)))) (eq_ix2 i)

end

end Cert.KernelIdeal.KHost

end
-- ==== Proof.KHost.lean ====
/-
  The two host stretches of the kernel program that quantise an activation array, read as the specification's clipped
  quantisation, and the weight arrays left as launched.

  Before the first pipeline the program reshapes its first argument to 256 × 4096, and quantises that matrix against
  the one step taken from its largest absolute value; between the two pipelines it does the same to the 256 × 11008
  matrix the first pipeline leaves. Each stretch's result is the composed term of its operations applied to the buffer
  it starts from; that term at an index is the clipped quantised entry. No host operation writes an argument buffer,
  and the first pipeline's arrays do not include the fourth argument, so the weights reach each pipeline as launched.
-/
import proofs.«145767_j78151224918032_2_alg».proof.Proof.Gen.KernelIdeal.Frame
import proofs.«145767_j78151224918032_2_alg».proof.Proof.QuantConsts
import proofs.«145767_j78151224918032_2_alg».proof.Proof.QuantParts
import proofs.«145767_j78151224918032_2_alg».proof.Proof.LibMergeRows
import proofs.«145767_j78151224918032_2_alg».proof.Proof.KHostQuant
import Idealize.ShloMosaic.Lib.StableHlo.Run
import Idealize.ShloMosaic.PureOps.Ideal

set_option maxRecDepth 16384

noncomputable section

namespace Cert.KernelIdeal.KHost

open Idealize.ShloMosaic Idealize.ShloMosaic.TcCoe Idealize.ShloMosaic.ValueIdx Idealize.ShloMosaic.StableHlo
open Idealize.SL.Sem
open Cert.KernelIdeal Cert.KernelIdeal.Facts₀ Cert.KernelIdeal.Facts

variable (m : (ℓ : Loc nD τ sig) → Buf (Elt Ideal) ℓ) (ρ : Dev nD → PrngReg) (c : Dev nD)

/-! ### Before the first pipeline -/

/-- The first pipeline finds, in its activation array, the stretch's term of the reshaped first argument. -/
theorem entry0_term :
    (Gen.W5 m ρ c (Proc.devRef .tc main_v11) : S256x4096.Idx → EReal)
      = quantTerm reducesTo_S256x4096_S_d0_1 h_S_ bcast_S_S256x4096 bitsLt_bf16_f32
          (shapeCast S256x4096 (m ((c : Thread nD τ).loc main_arg0)) shapeCasts_S8x32x4096_S256x4096) := by
  dsimp only [Gen.W5, Gen.W4, Gen.W3, Gen.W2, Gen.W1, Gen.W0]
  simp only [Gen.hostOps0, Gen.hostOps0_1, Gen.hostOps0_2, Gen.hostOps0_3, Gen.hostOps0_4]
  after_results
  rfl

/-- The first pipeline's activation array is the reshaped first argument quantised against its one step. -/
theorem entry0_act :
    (Gen.W5 m ρ c (Proc.devRef .tc main_v11) : S256x4096.Idx → EReal)
      = fun i => Cert.QuantMLP.actK (fun (p : Fin 256) (k : Fin 4096) =>
          (shapeCast S256x4096 (m ((c : Thread nD τ).loc main_arg0)) shapeCasts_S8x32x4096_S256x4096
            : S256x4096.Idx → EReal) (ix2 p k)) (i 0) (i 1) := by
  rw [entry0_term]
  funext i
  exact quantTerm_apply _ _ _ _ _ i

/-- No host operation before the first pipeline writes an argument buffer: the gate weights reach it as launched. -/
theorem entry0_arg1 : Gen.W5 m ρ c (Proc.devRef .tc main_arg1) = m ((c : Thread nD τ).loc main_arg1) := by
  dsimp only [Gen.W5, Gen.W4, Gen.W3, Gen.W2, Gen.W1, Gen.W0]
  simp only [Gen.hostOps0, Gen.hostOps0_1, Gen.hostOps0_2, Gen.hostOps0_3, Gen.hostOps0_4]
  after_results

/-- Likewise the up weights reach the first pipeline as launched. -/
theorem entry0_arg2 : Gen.W5 m ρ c (Proc.devRef .tc main_arg2) = m ((c : Thread nD τ).loc main_arg2) := by
  dsimp only [Gen.W5, Gen.W4, Gen.W3, Gen.W2, Gen.W1, Gen.W0]
  simp only [Gen.hostOps0, Gen.hostOps0_1, Gen.hostOps0_2, Gen.hostOps0_3, Gen.hostOps0_4]
  after_results

/-- Likewise the down weights are, at the first pipeline's entry, as launched. -/
theorem entry0_arg3 : Gen.W5 m ρ c (Proc.devRef .tc main_arg3) = m ((c : Thread nD τ).loc main_arg3) := by
  dsimp only [Gen.W5, Gen.W4, Gen.W3, Gen.W2, Gen.W1, Gen.W0]
  simp only [Gen.hostOps0, Gen.hostOps0_1, Gen.hostOps0_2, Gen.hostOps0_3, Gen.hostOps0_4]
  after_results

/-! ### Between the two pipelines -/

/-- The second pipeline finds, in its activation array, the stretch's term of the hidden array the first pipeline
    leaves. -/
theorem entry1_term :
    (Gen.W11 m ρ c (Proc.devRef .tc main_v23) : S256x11008.Idx → EReal)
      = quantTerm reducesTo_S256x11008_S_d0_1 h_S_ bcast_S_S256x11008 bitsLt_bf16_f32
          (Gen.W6 m ρ c (Proc.devRef .tc main_v12) : S256x11008.Idx → EReal) := by
  dsimp only [Gen.W11, Gen.W10, Gen.W9, Gen.W8, Gen.W7]
  simp only [Gen.hostOps1, Gen.hostOps1_1, Gen.hostOps1_2, Gen.hostOps1_3, Gen.hostOps1_4]
  after_results
  rfl

/-- The second pipeline's activation array is the hidden array the first pipeline leaves, quantised against its one
    step. -/
theorem entry1_act :
    (Gen.W11 m ρ c (Proc.devRef .tc main_v23) : S256x11008.Idx → EReal)
      = fun i => Cert.QuantMLP.actK (fun (p : Fin 256) (k : Fin 11008) =>
          (Gen.W6 m ρ c (Proc.devRef .tc main_v12) : S256x11008.Idx → EReal) (ix2 p k)) (i 0) (i 1) := by
  rw [entry1_term]
  funext i
  exact quantTerm_apply _ _ _ _ _ i

/-- The down weights reach the second pipeline as launched: no host operation writes them, and they are none of the
    first pipeline's arrays. -/
theorem entry1_arg3 : Gen.W11 m ρ c (Proc.devRef .tc main_arg3) = m ((c : Thread nD τ).loc main_arg3) := by
  have e : Gen.W11 m ρ c (Proc.devRef .tc main_arg3) = Gen.W6 m ρ c (Proc.devRef .tc main_arg3) := by
    dsimp only [Gen.W11, Gen.W10, Gen.W9, Gen.W8, Gen.W7]
    simp only [Gen.hostOps1, Gen.hostOps1_1, Gen.hostOps1_2, Gen.hostOps1_3, Gen.hostOps1_4]
    after_results
  rw [e, Gen.W6_of_ne m ρ c main_arg3 (by decide)]
  exact entry0_arg3 m ρ c

end Cert.KernelIdeal.KHost

end
-- ==== Proof.RefValueMax.lean ====
/-
  The two maximum-reductions of the reference program, from the word of −∞, as suprema: over a whole rank-3 array, and
  along each row of a matrix.
-/
import proofs.«145767_j78151224918032_2_alg».proof.Proof.QuantConsts
import Idealize.ShloMosaic.Lib.ValueIdx
import Idealize.ShloMosaic.PureOps.Reduce
import Idealize.ShloMosaic.PureOps.Ideal.Laws

noncomputable section

namespace Cert.ReferenceIdeal.RefValue

open Idealize.ShloMosaic Idealize.ShloMosaic.ValueIdx Cert.QuantMLP

/-- A maximum-reduction of a rank-3 array over all three axes, from the word of −∞, is the supremum over the pairs of
    leading coordinates of the supremum along the last axis. -/
theorem reduce_all3 {a b c : Nat} {u : Shape} (x : (⟨3, ![a, b, c]⟩ : Shape).Idx → EReal) (init : u.Idx → EReal)
    (h : (⟨3, ![a, b, c]⟩ : Shape).ReducesTo [0, 1, 2] ⟨0, ![]⟩) (hu : 0 < u.numel)
    (hinit : init (Shape.Idx.first hu) = wninf) (j : (⟨0, ![]⟩ : Shape).Idx) :
    Host.reduce (FloatOps.maximumf (F := Ideal) (φ := .f32)) x init h hu j
      = ⨆ p : Fin a × Fin b, ⨆ k : Fin c, x (ix3 p.1 p.2 k) := by
  rw [Host.reduce_eq_fold, hinit,
    Finset.filter_true_of_mem (fun i _ => funext fun d => d.elim0)]
  show Finset.univ.fold max wninf x = _
  rw [fold_max_eq_iSup]
  refine Eq.trans ?_ (iSup_prod (f := fun q : (Fin a × Fin b) × Fin c => x (ix3 q.1.1 q.1.2 q.2)))
  exact (Function.Surjective.iSup_comp (f := fun q : (Fin a × Fin b) × Fin c => ix3 q.1.1 q.1.2 q.2)
    (fun i => ⟨((i 0, i 1), i 2), (eq_ix3 i).symm⟩) x).symm

/-- A maximum-reduction of a matrix along its rows, from the word of −∞, is at row `i` the supremum of that row. -/
theorem reduce_rows {n c : Nat} {u : Shape} (x : (⟨2, ![n, c]⟩ : Shape).Idx → EReal) (init : u.Idx → EReal)
    (h' : (⟨2, ![n, c]⟩ : Shape).ReducesTo [1] ⟨1, ![n]⟩) (h : (⟨2, ![n, c]⟩ : Shape).Reduces [1] ⟨1, ![n]⟩)
    (hu : 0 < u.numel) (hinit : init (Shape.Idx.first hu) = wninf) (i : Fin n) :
    Host.reduce (FloatOps.maximumf (F := Ideal) (φ := .f32)) x init h' hu (ix1 i) = ⨆ k : Fin c, x (ix2 i k) := by
  rw [Host.reduce_eq_fold_single _ x init h' h hu, hinit]
  show Finset.univ.fold max wninf (x ∘ h.lift (ix1 i)) = _
  rw [fold_max_eq_iSup]
  show ⨆ k : Fin c, x (h.lift (ix1 i) k) = _
  refine congrArg iSup (funext fun k => congrArg x (funext fun d => Fin.ext ?_))
  match d with
  | ⟨0, _⟩ => rfl
  | ⟨1, _⟩ => rfl

end Cert.ReferenceIdeal.RefValue

end
-- ==== Proof.RefValueScale.lean ====
/-
  The quantisation steps of the reference program: the two whole-array steps of the activations and of the hidden layer,
  and the row steps of the three weight matrices.
-/
import proofs.«145767_j78151224918032_2_alg».proof.Proof.Gen.ReferenceIdeal.Read
import proofs.«145767_j78151224918032_2_alg».proof.Proof.QuantSpec
import proofs.«145767_j78151224918032_2_alg».proof.Proof.QuantConsts
import proofs.«145767_j78151224918032_2_alg».proof.Proof.RefValueMax

noncomputable section

namespace Cert.ReferenceIdeal.RefValue

open Idealize.ShloMosaic Idealize.ShloMosaic.ValueIdx Cert.QuantMLP Cert.ReferenceIdeal.Read
open scoped BigOperators

/-- The activations' quantisation step: the whole-array maximum of absolute values over 127, plus ε. -/
theorem v3_eq (x : (⟨S8x32x4096, .f32⟩ : BufTy).Contents (Elt Ideal)) (j : S_.Idx) :
    val_main_v3 (F := Ideal) x j
      = scaleOf (amaxAll (fun (p : Fin 8 × Fin 32) (k : Fin 4096) => x (ix3 p.1 p.2 k))) := by
  rw [val_main_v3_apply, val_main_v2_apply, val_main_cst_1_apply, val_main_cst_0_apply]
  unfold val_main_v1
  rw [reduce_all3 (val_main_v0 (F := Ideal) x) (val_main_cst (F := Ideal)) _ _ rfl j]
  rfl

/-- The hidden layer's quantisation step: the maximum of absolute values of the whole hidden array over 127, plus ε. -/
theorem v49_eq (x : (⟨S8x32x4096, .f32⟩ : BufTy).Contents (Elt Ideal)) (wg wu : (⟨S11008x4096, .f32⟩ : BufTy).Contents (Elt Ideal)) (j : S_.Idx) :
    val_main_v49 (F := Ideal) x wg wu j
      = scaleOf (amaxAll (fun (p : Fin 8 × Fin 32) (k : Fin 11008) => val_main_v45 (F := Ideal) x wg wu (ix3 p.1 p.2 k))) := by
  rw [val_main_v49_apply, val_main_v48_apply, val_main_cst_16_apply, val_main_cst_15_apply]
  unfold val_main_v47
  rw [reduce_all3 (val_main_v46 (F := Ideal) x wg wu) (val_main_cst_14 (F := Ideal)) _ _ rfl j]
  rfl

/-- The quantisation step of row `i` of the gate weights: the row's maximum of absolute values over 127, plus ε. -/
theorem v18_eq (w : (⟨S11008x4096, .f32⟩ : BufTy).Contents (Elt Ideal)) (i : Fin 11008) (u : Fin 1) :
    val_main_v18 (F := Ideal) w (ix2 i u)
      = scaleOf (amaxRow (fun (i : Fin 11008) (k : Fin 4096) => w (ix2 i k)) i) := by
  rw [val_main_v18_apply, val_main_v16_apply, val_main_v14_apply, val_main_v15_apply,
    val_main_v17_apply, val_main_cst_5_apply, val_main_cst_6_apply]
  have e : idx_main_v14 (ix2 i u) = ix1 i := funext fun a => Fin.ext (by match a with | ⟨0, _⟩ => rfl)
  rw [e]
  unfold val_main_v13
  rw [reduce_rows (val_main_v12 (F := Ideal) w) (val_main_cst_4 (F := Ideal)) _ (by decide) _ rfl i]
  rfl

/-- The quantisation step of row `i` of the up weights: the row's maximum of absolute values over 127, plus ε. -/
theorem v33_eq (w : (⟨S11008x4096, .f32⟩ : BufTy).Contents (Elt Ideal)) (i : Fin 11008) (u : Fin 1) :
    val_main_v33 (F := Ideal) w (ix2 i u)
      = scaleOf (amaxRow (fun (i : Fin 11008) (k : Fin 4096) => w (ix2 i k)) i) := by
  rw [val_main_v33_apply, val_main_v31_apply, val_main_v29_apply, val_main_v30_apply,
    val_main_v32_apply, val_main_cst_10_apply, val_main_cst_11_apply]
  have e : idx_main_v29 (ix2 i u) = ix1 i := funext fun a => Fin.ext (by match a with | ⟨0, _⟩ => rfl)
  rw [e]
  unfold val_main_v28
  rw [reduce_rows (val_main_v27 (F := Ideal) w) (val_main_cst_9 (F := Ideal)) _ (by decide) _ rfl i]
  rfl

/-- The quantisation step of row `i` of the down weights: the row's maximum of absolute values over 127, plus ε. -/
theorem v64_eq (w : (⟨S4096x11008, .f32⟩ : BufTy).Contents (Elt Ideal)) (i : Fin 4096) (u : Fin 1) :
    val_main_v64 (F := Ideal) w (ix2 i u)
      = scaleOf (amaxRow (fun (i : Fin 4096) (k : Fin 11008) => w (ix2 i k)) i) := by
  rw [val_main_v64_apply, val_main_v62_apply, val_main_v60_apply, val_main_v61_apply,
    val_main_v63_apply, val_main_cst_20_apply, val_main_cst_21_apply]
  have e : idx_main_v60 (ix2 i u) = ix1 i := funext fun a => Fin.ext (by match a with | ⟨0, _⟩ => rfl)
  rw [e]
  unfold val_main_v59
  rw [reduce_rows (val_main_v58 (F := Ideal) w) (val_main_cst_19 (F := Ideal)) _ (by decide) _ rfl i]
  rfl

end Cert.ReferenceIdeal.RefValue

end
-- ==== Proof.RefValueQuant.lean ====
/-
  The quantised arrays of the reference program: the activations and the hidden layer against their whole-array steps,
  the three weight matrices against their row steps, all in the straight-through form.
-/
import proofs.«145767_j78151224918032_2_alg».proof.Proof.Gen.ReferenceIdeal.Read
import proofs.«145767_j78151224918032_2_alg».proof.Proof.QuantSpec
import proofs.«145767_j78151224918032_2_alg».proof.Proof.QuantConsts
import proofs.«145767_j78151224918032_2_alg».proof.Proof.RefValueScale

noncomputable section

namespace Cert.ReferenceIdeal.RefValue

open Idealize.ShloMosaic Idealize.ShloMosaic.ValueIdx Cert.QuantMLP Cert.ReferenceIdeal.Read
open scoped BigOperators

/-- The activations quantised against their one step, at (b, s, k). -/
theorem v11_eq (x : (⟨S8x32x4096, .f32⟩ : BufTy).Contents (Elt Ideal)) (b : Fin 8) (s : Fin 32) (k : Fin 4096) :
    val_main_v11 (F := Ideal) x (ix3 b s k)
      = actR (fun (p : Fin 8 × Fin 32) (k : Fin 4096) => x (ix3 p.1 p.2 k)) (b, s) k := by
  rw [val_main_v11_apply, val_main_v10_apply, val_main_v9_apply, val_main_v8_apply, val_main_v7_apply,
    val_main_call1_v4_apply, val_main_call1_v3_apply, val_main_cst_3_apply, val_main_call1_v2_apply,
    val_main_call1_v1_apply, val_main_call1_v0_apply, val_main_cst_2_apply, val_main_v6_apply, val_main_v5_apply,
    val_main_v4_apply]
  simp only [v3_eq]
  rfl

/-- The hidden array quantised against its one step, at (b, s, i). -/
theorem v57_eq (x : (⟨S8x32x4096, .f32⟩ : BufTy).Contents (Elt Ideal)) (wg wu : (⟨S11008x4096, .f32⟩ : BufTy).Contents (Elt Ideal)) (b : Fin 8) (s : Fin 32) (i : Fin 11008) :
    val_main_v57 (F := Ideal) x wg wu (ix3 b s i)
      = actR (fun (p : Fin 8 × Fin 32) (k : Fin 11008) => val_main_v45 (F := Ideal) x wg wu (ix3 p.1 p.2 k)) (b, s) i := by
  rw [val_main_v57_apply, val_main_v56_apply, val_main_v55_apply, val_main_v54_apply, val_main_v53_apply,
    val_main_call8_v4_apply, val_main_call8_v3_apply, val_main_cst_18_apply, val_main_call8_v2_apply,
    val_main_call8_v1_apply, val_main_call8_v0_apply, val_main_cst_17_apply, val_main_v52_apply, val_main_v51_apply,
    val_main_v50_apply]
  simp only [v49_eq]
  rfl

/-- The gate weights, quantised row by row in the straight-through form, at (i, k). -/
theorem v26_eq (w : (⟨S11008x4096, .f32⟩ : BufTy).Contents (Elt Ideal)) (i : Fin 11008) (k : Fin 4096) :
    val_main_v26 (F := Ideal) w (ix2 i k) = wR (fun (i : Fin 11008) (k : Fin 4096) => w (ix2 i k)) i k := by
  rw [val_main_v26_apply, val_main_v25_apply, val_main_v24_apply, val_main_v23_apply,
    val_main_v22_apply, val_main_call3_v4_apply, val_main_call3_v3_apply, val_main_cst_8_apply,
    val_main_call3_v2_apply, val_main_call3_v1_apply, val_main_call3_v0_apply, val_main_cst_7_apply,
    val_main_v21_apply, val_main_v20_apply, val_main_v19_apply]
  have e19 : idx_main_v19 (ix2 i k) = ix2 i (0 : Fin 1) :=
    funext fun a => Fin.ext (by match a with | ⟨0, _⟩ => rfl | ⟨1, _⟩ => rfl)
  have e23 : idx_main_v23 (ix2 i k) = ix2 i (0 : Fin 1) :=
    funext fun a => Fin.ext (by match a with | ⟨0, _⟩ => rfl | ⟨1, _⟩ => rfl)
  rw [e19, e23, v18_eq]
  rfl

/-- The up weights, quantised row by row in the straight-through form, at (i, k). -/
theorem v41_eq (w : (⟨S11008x4096, .f32⟩ : BufTy).Contents (Elt Ideal)) (i : Fin 11008) (k : Fin 4096) :
    val_main_v41 (F := Ideal) w (ix2 i k) = wR (fun (i : Fin 11008) (k : Fin 4096) => w (ix2 i k)) i k := by
  rw [val_main_v41_apply, val_main_v40_apply, val_main_v39_apply, val_main_v38_apply,
    val_main_v37_apply, val_main_call5_v4_apply, val_main_call5_v3_apply, val_main_cst_13_apply,
    val_main_call5_v2_apply, val_main_call5_v1_apply, val_main_call5_v0_apply, val_main_cst_12_apply,
    val_main_v36_apply, val_main_v35_apply, val_main_v34_apply]
  have e19 : idx_main_v34 (ix2 i k) = ix2 i (0 : Fin 1) :=
    funext fun a => Fin.ext (by match a with | ⟨0, _⟩ => rfl | ⟨1, _⟩ => rfl)
  have e23 : idx_main_v38 (ix2 i k) = ix2 i (0 : Fin 1) :=
    funext fun a => Fin.ext (by match a with | ⟨0, _⟩ => rfl | ⟨1, _⟩ => rfl)
  rw [e19, e23, v33_eq]
  rfl

/-- The down weights, quantised row by row in the straight-through form, at (i, k). -/
theorem v72_eq (w : (⟨S4096x11008, .f32⟩ : BufTy).Contents (Elt Ideal)) (i : Fin 4096) (k : Fin 11008) :
    val_main_v72 (F := Ideal) w (ix2 i k) = wR (fun (i : Fin 4096) (k : Fin 11008) => w (ix2 i k)) i k := by
  rw [val_main_v72_apply, val_main_v71_apply, val_main_v70_apply, val_main_v69_apply,
    val_main_v68_apply, val_main_call10_v4_apply, val_main_call10_v3_apply, val_main_cst_23_apply,
    val_main_call10_v2_apply, val_main_call10_v1_apply, val_main_call10_v0_apply, val_main_cst_22_apply,
    val_main_v67_apply, val_main_v66_apply, val_main_v65_apply]
  have e19 : idx_main_v65 (ix2 i k) = ix2 i (0 : Fin 1) :=
    funext fun a => Fin.ext (by match a with | ⟨0, _⟩ => rfl | ⟨1, _⟩ => rfl)
  have e23 : idx_main_v69 (ix2 i k) = ix2 i (0 : Fin 1) :=
    funext fun a => Fin.ext (by match a with | ⟨0, _⟩ => rfl | ⟨1, _⟩ => rfl)
  rw [e19, e23, v64_eq]
  rfl

end Cert.ReferenceIdeal.RefValue

end
-- ==== Proof.RefValueHidden.lean ====
/-
  The hidden layer of the reference program: the two projections of the quantised activations, and silu(gate) · up with
  silu spelt through 1 / (1 + e^(−g)).
-/
import proofs.«145767_j78151224918032_2_alg».proof.Proof.Gen.ReferenceIdeal.Read
import proofs.«145767_j78151224918032_2_alg».proof.Proof.QuantSpec
import proofs.«145767_j78151224918032_2_alg».proof.Proof.QuantConsts
import proofs.«145767_j78151224918032_2_alg».proof.Proof.RefValueQuant

noncomputable section

namespace Cert.ReferenceIdeal.RefValue

open Idealize.ShloMosaic Idealize.ShloMosaic.ValueIdx Cert.QuantMLP Cert.ReferenceIdeal.Read
open scoped BigOperators

/-- The gate projection at (b, s, i): the quantised activations of token (b, s) against row `i` of the quantised gate weights. -/
theorem v42_eq (x : (⟨S8x32x4096, .f32⟩ : BufTy).Contents (Elt Ideal)) (w : (⟨S11008x4096, .f32⟩ : BufTy).Contents (Elt Ideal)) (b : Fin 8) (s : Fin 32) (i : Fin 11008) :
    val_main_v42 (F := Ideal) x w (ix3 b s i)
      = ∑ k : Fin 4096, actR (fun (p : Fin 8 × Fin 32) (k : Fin 4096) => x (ix3 p.1 p.2 k)) (b, s) k * wR (fun (i : Fin 11008) (k : Fin 4096) => w (ix2 i k)) i k := by
  rw [val_main_v42_apply]
  refine Finset.sum_congr rfl fun k _ => ?_
  have el : lidx_main_v42 (ix3 b s i) k = ix3 b s k :=
    funext fun a => Fin.ext (by match a with | ⟨0, _⟩ => rfl | ⟨1, _⟩ => rfl | ⟨2, _⟩ => rfl)
  have er : ridx_main_v42 (ix3 b s i) k = ix2 i k :=
    funext fun a => Fin.ext (by match a with | ⟨0, _⟩ => rfl | ⟨1, _⟩ => rfl)
  rw [el, er, v11_eq, v26_eq]

/-- The up projection at (b, s, i): the quantised activations of token (b, s) against row `i` of the quantised up weights. -/
theorem v43_eq (x : (⟨S8x32x4096, .f32⟩ : BufTy).Contents (Elt Ideal)) (w : (⟨S11008x4096, .f32⟩ : BufTy).Contents (Elt Ideal)) (b : Fin 8) (s : Fin 32) (i : Fin 11008) :
    val_main_v43 (F := Ideal) x w (ix3 b s i)
      = ∑ k : Fin 4096, actR (fun (p : Fin 8 × Fin 32) (k : Fin 4096) => x (ix3 p.1 p.2 k)) (b, s) k * wR (fun (i : Fin 11008) (k : Fin 4096) => w (ix2 i k)) i k := by
  rw [val_main_v43_apply]
  refine Finset.sum_congr rfl fun k _ => ?_
  have el : lidx_main_v43 (ix3 b s i) k = ix3 b s k :=
    funext fun a => Fin.ext (by match a with | ⟨0, _⟩ => rfl | ⟨1, _⟩ => rfl | ⟨2, _⟩ => rfl)
  have er : ridx_main_v43 (ix3 b s i) k = ix2 i k :=
    funext fun a => Fin.ext (by match a with | ⟨0, _⟩ => rfl | ⟨1, _⟩ => rfl)
  rw [el, er, v11_eq, v41_eq]

/-- The hidden array at (b, s, i) is the specification's hidden layer, second arrangement, at token (b, s) and channel `i`. -/
theorem v45_eq (x : (⟨S8x32x4096, .f32⟩ : BufTy).Contents (Elt Ideal)) (wg wu : (⟨S11008x4096, .f32⟩ : BufTy).Contents (Elt Ideal)) (b : Fin 8) (s : Fin 32) (i : Fin 11008) :
    val_main_v45 (F := Ideal) x wg wu (ix3 b s i) = hidR (fun (p : Fin 8 × Fin 32) (k : Fin 4096) => x (ix3 p.1 p.2 k)) (fun (i : Fin 11008) (k : Fin 4096) => wg (ix2 i k)) (fun (i : Fin 11008) (k : Fin 4096) => wu (ix2 i k)) (b, s) i := by
  rw [val_main_v45_apply, val_main_v44_apply, val_main_call6_v5_apply, val_main_call6_v4_apply,
    val_main_call6_cst_0_apply, val_main_call6_v3_apply, val_main_call6_v2_apply, val_main_call6_cst_apply,
    val_main_call6_v1_apply, val_main_call6_v0_apply, v42_eq, v43_eq]
  rfl

end Cert.ReferenceIdeal.RefValue

end
-- ==== Proof.RefValue.lean ====
/-
  The reference program's result, read at (b, s, n), is the specification's second arrangement of the quantised MLP of the
  four argument arrays, the tokens indexed by the pair (b, s).
-/
import proofs.«145767_j78151224918032_2_alg».proof.Proof.Gen.ReferenceIdeal.Read
import proofs.«145767_j78151224918032_2_alg».proof.Proof.QuantSpec
import proofs.«145767_j78151224918032_2_alg».proof.Proof.QuantConsts
import proofs.«145767_j78151224918032_2_alg».proof.Proof.RefValueQuant
import proofs.«145767_j78151224918032_2_alg».proof.Proof.RefValueHidden

noncomputable section

namespace Cert.ReferenceIdeal.RefValue

open Idealize.ShloMosaic Idealize.ShloMosaic.ValueIdx Cert.QuantMLP Cert.ReferenceIdeal.Read
open scoped BigOperators

/-- The hidden array, as a function of the token pair and the channel, is the specification's hidden layer. -/
theorem hidden_eq (x : (⟨S8x32x4096, .f32⟩ : BufTy).Contents (Elt Ideal)) (wg wu : (⟨S11008x4096, .f32⟩ : BufTy).Contents (Elt Ideal)) :
    (fun (p : Fin 8 × Fin 32) (k : Fin 11008) => val_main_v45 (F := Ideal) x wg wu (ix3 p.1 p.2 k))
      = hidR (fun (p : Fin 8 × Fin 32) (k : Fin 4096) => x (ix3 p.1 p.2 k)) (fun (i : Fin 11008) (k : Fin 4096) => wg (ix2 i k)) (fun (i : Fin 11008) (k : Fin 4096) => wu (ix2 i k)) :=
  funext fun p => funext fun k => v45_eq x wg wu p.1 p.2 k

/-- The result at (b, s, n): the quantised hidden row of token (b, s) against row `n` of the quantised down weights. -/
theorem ref_eq (x : (⟨S8x32x4096, .f32⟩ : BufTy).Contents (Elt Ideal)) (wg wu : (⟨S11008x4096, .f32⟩ : BufTy).Contents (Elt Ideal)) (wd : (⟨S4096x11008, .f32⟩ : BufTy).Contents (Elt Ideal))
    (b : Fin 8) (s : Fin 32) (n : Fin 4096) :
    val_main_v73 (F := Ideal) x wg wu wd (ix3 b s n) = mlpR (fun (p : Fin 8 × Fin 32) (k : Fin 4096) => x (ix3 p.1 p.2 k)) (fun (i : Fin 11008) (k : Fin 4096) => wg (ix2 i k)) (fun (i : Fin 11008) (k : Fin 4096) => wu (ix2 i k)) (fun (n : Fin 4096) (i : Fin 11008) => wd (ix2 n i)) (b, s) n := by
  rw [val_main_v73_apply]
  refine Finset.sum_congr rfl fun k _ => ?_
  have el : lidx_main_v73 (ix3 b s n) k = ix3 b s k :=
    funext fun a => Fin.ext (by match a with | ⟨0, _⟩ => rfl | ⟨1, _⟩ => rfl | ⟨2, _⟩ => rfl)
  have er : ridx_main_v73 (ix3 b s n) k = ix2 n k :=
    funext fun a => Fin.ext (by match a with | ⟨0, _⟩ => rfl | ⟨1, _⟩ => rfl)
  rw [el, er, v57_eq, v72_eq, hidden_eq]

end Cert.ReferenceIdeal.RefValue

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.PreReal.lean ====
/-
  The precondition says that every entry of the four input arrays is a real number.

  The precondition is the conjunction of four tests, one per array: the reduction by "and", from 1, over all axes of
  the entrywise comparison |a| < +∞. A conjunction of bits that is 1 has both bits 1; a reduction by "and" over all
  axes that came out 1 met a 1 at every index; and an extended real whose absolute value is strictly below +∞ is a
  real.
-/
import proofs.«145767_j78151224918032_2_alg».proof.Pre_finite_inputs
import proofs.«145767_j78151224918032_2_alg».proof.Proof.QuantConsts
import proofs.«145767_j78151224918032_2_alg».proof.Proof.LibFiniteReal
import Idealize.ShloMosaic.Lib.ReduceAll
import Idealize.ShloMosaic.Lib.ValueIdx

noncomputable section

namespace Cert.PreReal

open Idealize.ShloMosaic Cert.Pre_finite_inputs

/-- One test "all entries have |a| < +∞" that passes says that every entry of the array is real. -/
theorem real_of_all {s : Shape} {axes : List (Fin s.rank)} (hb : S_.BroadcastsInDim s (![] : Fin 0 → Fin s.rank))
    (hr : s.ReducesTo axes S_) (h0 : 0 < S_.numel) (a : FVec Ideal s .f32)
    (h : Host.reduce IntOp.andi
          (cmpf .olt (Host.absf a) (broadcastInDim s ![] hb (constant (F := Ideal) S_ .f32 0x7F800000#32)))
          (constantI S_ 1 1#1) hr h0 ValueIdx.ix0 = 1#1) :
    ∀ i, Cert.QuantMLP.IsReal (a i) := by
  intro i
  haveI := Cert.Lib.FiniteReal.subsingleton_idx0
  have e := Host.reduce_andi_all _ _ hr h0 _ h i
  exact Cert.Lib.FiniteReal.real_of_abs_lt_inf (a i) e

variable [Cert.Pre_finite_inputs.Facts]

/-- If the precondition holds of four arrays then every entry of each of them is a real number. -/
theorem real_of_pre (x : FVec Ideal S8x32x4096 .f32) (wg wu : FVec Ideal S11008x4096 .f32)
    (wd : FVec Ideal S4096x11008 .f32)
    (h : Cert.Pre_finite_inputs.fn (F := Ideal) x wg wu wd = fun _ => 1#1) :
    (∀ i, Cert.QuantMLP.IsReal (x i)) ∧ (∀ i, Cert.QuantMLP.IsReal (wg i)) ∧ (∀ i, Cert.QuantMLP.IsReal (wu i))
      ∧ (∀ i, Cert.QuantMLP.IsReal (wd i)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all _ _ _ x h1, real_of_all _ _ _ wg h2, real_of_all _ _ _ wu h3, real_of_all _ _ _ wd h4⟩

end Cert.PreReal

end
-- ==== Proof.lean ====
/-
  A fake-int8 SwiGLU MLP in two Pallas pipelines against its jnp reference, equal on the extended reals for finite inputs.

  Both programs quantise the activations against one scale s = max|x| / 127 + ε and every weight row against its own,
  project to gate and up, take silu(gate) · up, quantise that again against one scale, and project down. They differ in
  four places. The kernel's pipelines quantise a weight as round(w · (1/s)) · s and drop the clip to [−128, 127]; the
  reference divides and clips. On reals w · (1/s) = w / s because s > 0, and |w / s| < 127 strictly because
  |w| ≤ max|row| < 127 · s, so the rounded value already lies in [−127, 127] and the clip changes nothing. The reference
  writes every quantised value as v + (q − v), which is q when v is a real number; for the hidden layer that needs the
  hidden layer itself to be real, which it is as a product of silu of a finite sum of reals with another such sum. The
  kernel spells silu through the logistic function, the reference through 1 / (1 + e^(−g)): one function. And the kernel
  flattens the 8 × 32 tokens to 256 rows and reshapes back at the end, which moves no value and does not change the
  whole-array maxima. Matrix products are the same finite sums; a change of float format is the identity here.

  The frames of the two kernel programs are the generated ones; the reference's frame is its generated run with the
  result dropped; the ideal pass rewrote nothing, so the idealisation claim is trivial.
-/
import proofs.«145767_j78151224918032_2_alg».proof.Defs
import proofs.«145767_j78151224918032_2_alg».proof.Proof.Gen.Kernel
import proofs.«145767_j78151224918032_2_alg».proof.Proof.Gen.Kernel.Frame
import proofs.«145767_j78151224918032_2_alg».proof.Proof.Gen.KernelIdeal
import proofs.«145767_j78151224918032_2_alg».proof.Proof.Gen.KernelIdeal.Frame
import proofs.«145767_j78151224918032_2_alg».proof.Proof.Gen.ReferenceIdeal
import proofs.«145767_j78151224918032_2_alg».proof.Proof.Gen.Pre_finite_inputs
import proofs.«145767_j78151224918032_2_alg».proof.Proof.Gen.ReferenceIdeal.Run
import proofs.«145767_j78151224918032_2_alg».proof.Proof.Gen.ReferenceIdeal.Read
import proofs.«145767_j78151224918032_2_alg».proof.Proof.KRun
import proofs.«145767_j78151224918032_2_alg».proof.Proof.KFinal
import proofs.«145767_j78151224918032_2_alg».proof.Proof.KHost
import proofs.«145767_j78151224918032_2_alg».proof.Proof.RefValue
import proofs.«145767_j78151224918032_2_alg».proof.Proof.PreReal
import proofs.«145767_j78151224918032_2_alg».proof.Proof.QuantMath
import Idealize.ShloMosaic.Adequacy
import Idealize.ShloMosaic.Init

set_option maxRecDepth 16384

noncomputable section

namespace Cert.Proof

open Idealize.ShloMosaic Idealize.ShloMosaic.ValueIdx Idealize.SL.Sem

/-- The kernel program runs and leaves its arguments as launched: the generated frame. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments as launched: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four finite arrays both programs end with the same result: the kernel's is the first
    arrangement of the MLP on the input indexed by token pairs, the reference's the second arrangement of the same
    arrays, and the two arrangements agree on real arrays. -/
theorem algebraic : Cert.algebraic_KernelIdeal_ReferenceIdeal := by
  intro m ρ m' ρ' hpre hagree
  refine ⟨fun c => Cert.KernelIdeal.Gen.W13 m ρ c (Proc.devRef .tc Cert.KernelIdeal.main_v25),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, (hagree c).1, (hagree c).2.1, (hagree c).2.2.1, (hagree c).2.2.2]
  obtain ⟨hx, hg, hu, hd⟩ := Cert.PreReal.real_of_pre _ _ _ _ (hpre c)
  funext i
  obtain ⟨b, s, n, rfl⟩ : ∃ (b : Fin 8) (s : Fin 32) (n : Fin 4096), i = ix3 b s n := ⟨i 0, i 1, i 2, eq_ix3 i⟩
  rw [Cert.ReferenceIdeal.RefValue.ref_eq]
  refine Eq.trans ?_ (Cert.KernelIdeal.KValue.result_apply m ρ c (Cert.KernelIdeal.KHost.entry0_act m ρ c)
    (Cert.KernelIdeal.KHost.entry0_arg1 m ρ c) (Cert.KernelIdeal.KHost.entry0_arg2 m ρ c)
    (Cert.KernelIdeal.KHost.entry1_act m ρ c) (Cert.KernelIdeal.KHost.entry1_arg3 m ρ c) b s n).symm
  exact congrFun (congrFun (Cert.QuantMLP.mlpR_eq_mlpK _ _ _ _ (fun r k => hx _) (fun i k => hg _) (fun i k => hu _)
    (fun n i => hd _)) (b, s)) n

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
